-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S512x595 : S_.BroadcastsInDim S512x595 (![] : Fin 0 → Fin S512x595.rank)
  reducesTo_S512x595_S_d0_1 : S512x595.ReducesTo [0, 1] S_
  h_S_ : 0 < S_.numel
  bcast_S_S595x128 : S_.BroadcastsInDim S595x128 (![] : Fin 0 → Fin S595x128.rank)
  reducesTo_S595x128_S_d0_1 : S595x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S384x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S512x595 .f32) (main_arg1 : FVec F S595x128 .f32) (main_arg2 : FVec F S128 .f32) (main_arg3 : FVec F S128x128 .f32) (main_arg4 : FVec F S128 .f32) (main_arg5 : FVec F S384x128 .f32) (main_arg6 : FVec F S128 .f32) (main_arg7 : FVec F S128x1 .f32) (main_arg8 : FVec F S1 .f32) : IVec S_ 1 :=
  let main_v0 : FVec F S512x595 .f32 := Host.absf main_arg0
  let main_cst : FVec F S_ .f32 := constant S_ .f32 0x7F800000#32
  let main_v1 : FVec F S512x595 .f32 := broadcastInDim S512x595 ![] bcast_S_S512x595 main_cst
  let main_v2 : IVec S512x595 1 := cmpf .olt main_v0 main_v1
  let main_c : IVec S_ 1 := constantI S_ 1 1#1
  let main_v3 : IVec S_ 1 := (fun x v => Host.reduce IntOp.andi x v reducesTo_S512x595_S_d0_1 h_S_) main_v2 main_c
  let main_v4 : FVec F S595x128 .f32 := Host.absf main_arg1
  let main_cst_0 : FVec F S_ .f32 := constant S_ .f32 0x7F800000#32
  let main_v5 : FVec F S595x128 .f32 := broadcastInDim S595x128 ![] bcast_S_S595x128 main_cst_0
  let main_v6 : IVec S595x128 1 := cmpf .olt main_v4 main_v5
  let main_c_1 : IVec S_ 1 := constantI S_ 1 1#1
  let main_v7 : IVec S_ 1 := (fun x v => Host.reduce IntOp.andi x v reducesTo_S595x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S512x512 : Shape := ⟨2, ![512, 512]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S1x1x128 : Shape := ⟨3, ![1, 1, 128]⟩

abbrev nBuf : Space → Nat
  | .hbm => 37
  | .vmem => 12
  | .smem => 0
  | _ => 0

abbrev bufTy : (tb : Table) → Fin (tcTables nBuf tb) → BufTy
  | .hbm, ⟨0, _⟩ => ⟨S512x595, .f32⟩
  | .hbm, ⟨1, _⟩ => ⟨S595x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S1x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S512x128, .f32⟩
  | .hbm, ⟨28, _⟩ => ⟨S1x128, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S1x128, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .bf16⟩
  | .local _ .vmem, ⟨9, _⟩ => ⟨S1x128, .f32⟩
  | .local _ .vmem, ⟨10, _⟩ => ⟨S128x128, .f32⟩
  | .local _ .vmem, ⟨11, _⟩ => ⟨S128x128, .f32⟩
  | _, _ => ⟨S512x595, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bitsLt_bf16_f32 : FTy.bits .bf16 < FTy.bits .f32
  shapeCasts_S128x1_S1x128 : S128x1.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  shapeCasts_S16384x128_S128x128x128 : S16384x128.ShapeCasts S128x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  shapeCasts_S128_S1x1x128 : S128.ShapeCasts S1x1x128
  broadcasts_S1x1x128_S128x128x128 : S1x1x128.Broadcasts S128x128x128
  reduces_S128x128x128_S128x128 : S128x128x128.Reduces [2] S128x128
  shapeCasts_S1_S_ : S1.ShapeCasts S_
  bcast_S_S512x512 : S_.BroadcastsInDim S512x512 (![] : Fin 0 → Fin S512x512.rank)
  dot_S512x595_S595x128_S512x128_1_0_0_1_n_n_wf : DotDims.WF S512x595 S595x128 S512x128 [1] [0] [0] [1] [] []
  dot_S512x128_S128x128_S512x128_1_0_0_1_n_n_wf : DotDims.WF S512x128 S128x128 S512x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x128.size a
  hwx0_0 : ∀ i : grid0.Coords, EltTy.bits .f32 = 32 ∨ (Rect.block (s := S512x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x128.size a
  hwx0_2 : ∀ i : grid0.Coords, EltTy.bits .f32 = 32 ∨ (Rect.block (s := S512x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x128.size a
  hwx0_3 : ∀ i : grid0.Coords, EltTy.bits .f32 = 32 ∨ (Rect.block (s := S512x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S512x512.size a
  hwx0_6 : ∀ i : grid0.Coords, EltTy.bits .f32 = 32 ∨ (Rect.block (s := S512x512) S128x128.size (cc0_transform_6 i) (hinb0_6 i)).WholeWords (EltTy.packing .f32)

variable [Facts₀]

def dot_S512x595_S595x128_S512x128_1_0_0_1_n_n : DotDims S512x595 S595x128 S512x128 where
  lhsContracting := [1]
  rhsContracting := [0]
  lhsNonContracting := [0]
  rhsNonContracting := [1]
  lhsBatch := []
  rhsBatch := []
  wf := dot_S512x595_S595x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v9) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x595 : Shape := ⟨2, ![512, 595]⟩
abbrev S595x128 : Shape := ⟨2, ![595, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S512x1x128 : Shape := ⟨3, ![512, 1, 128]⟩
abbrev S512x512x128 : Shape := ⟨3, ![512, 512, 128]⟩
abbrev S1x512x128 : Shape := ⟨3, ![1, 512, 128]⟩
abbrev S512x512x384 : Shape := ⟨3, ![512, 512, 384]⟩
abbrev S1x1x128 : Shape := ⟨3, ![1, 1, 128]⟩
abbrev S512x512x1 : Shape := ⟨3, ![512, 512, 1]⟩
abbrev S1x1x1 : Shape := ⟨3, ![1, 1, 1]⟩
abbrev S512x512 : Shape := ⟨2, ![512, 512]⟩

abbrev nBuf : Space → Nat
  | .hbm => 42
  | .vmem => 0
  | .smem => 0
  | _ => 0

abbrev bufTy : (tb : Table) → Fin (tcTables nBuf tb) → BufTy
  | .hbm, ⟨0, _⟩ => ⟨S512x595, .f32⟩
  | .hbm, ⟨1, _⟩ => ⟨S595x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S512x128, .f32⟩
  | .hbm, ⟨10, _⟩ => ⟨S1x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S1x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x1x128, .f32⟩
  | .hbm, ⟨24, _⟩ => ⟨S512x512x128, .f32⟩
  | .hbm, ⟨25, _⟩ => ⟨S1x512x128, .f32⟩
  | .hbm, ⟨26, _⟩ => ⟨S512x512x128, .f32⟩
  | .hbm, ⟨27, _⟩ => ⟨S512x512x128, .f32⟩
  | .hbm, ⟨28, _⟩ => ⟨S512x512x128, .f32⟩
  | .hbm, ⟨29, _⟩ => ⟨S512x512x384, .f32⟩
  | .hbm, ⟨30, _⟩ => ⟨S512x512x128, .f32⟩
  | .hbm, ⟨31, _⟩ => ⟨S1x1x128, .f32⟩
  | .hbm, ⟨32, _⟩ => ⟨S512x512x128, .f32⟩
  | .hbm, ⟨33, _⟩ => ⟨S512x512x128, .f32⟩
  | .hbm, ⟨34, _⟩ => ⟨S_, .f32⟩
  | .hbm, ⟨35, _⟩ => ⟨S512x512x128, .f32⟩
  | .hbm, ⟨36, _⟩ => ⟨S512x512x128, .f32⟩
  | .hbm, ⟨37, _⟩ => ⟨S512x512x1, .f32⟩
  | .hbm, ⟨38, _⟩ => ⟨S1x1x1, .f32⟩
  | .hbm, ⟨39, _⟩ => ⟨S512x512x1, .f32⟩
  | .hbm, ⟨40, _⟩ => ⟨S512x512x1, .f32⟩
  | .hbm, ⟨41, _⟩ => ⟨S512x512, .f32⟩
  | _, _ => ⟨S512x595, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call2_cst : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  concatenates_S512x512x128_S512x512x128_S512x512x128_S512x512x384_d2 : Shape.Concatenates [S512x512x128, S512x512x128, S512x512x128] S512x512x384 2
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  shapeCasts_S512x512x1_S512x512 : S512x512x1.ShapeCasts S512x512
  dot_S512x595_S595x128_S512x128_1_0_0_1_n_n_wf : DotDims.WF S512x595 S595x128 S512x128 [1] [0] [0] [1] [] []
  dot_S512x128_S128x128_S512x128_1_0_0_1_n_n_wf : DotDims.WF S512x128 S128x128 S512x128 [1] [0] [0] [1] [] []
  dot_S512x512x384_S384x128_S512x512x128_2_0_01_1_n_n_wf : DotDims.WF S512x512x384 S384x128 S512x512x128 [2] [0] [0, 1] [1] [] []
  dot_S512x512x128_S128x1_S512x512x1_2_0_01_1_n_n_wf : DotDims.WF S512x512x128 S128x1 S512x512x1 [2] [0] [0, 1] [1] [] []

variable [Facts₀]

def dot_S512x595_S595x128_S512x128_1_0_0_1_n_n : DotDims S512x595 S595x128 S512x128 where
  lhsContracting := [1]
  rhsContracting := [0]
  lhsNonContracting := [0]
  rhsNonContracting := [1]
  lhsBatch := []
  rhsBatch := []
  wf := dot_S512x595_S595x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512x384_S384x128_S512x512x128_2_0_01_1_n_n : DotDims S512x512x384 S384x128 S512x512x128 where
  lhsContracting := [2]
  rhsContracting := [0]
  lhsNonContracting := [0, 1]
  rhsNonContracting := [1]
  lhsBatch := []
  rhsBatch := []
  wf := dot_S512x512x384_S384x128_S512x512x128_2_0_01_1_n_n_wf
def dot_S512x512x128_S128x1_S512x512x1_2_0_01_1_n_n : DotDims S512x512x128 S128x1 S512x512x1 where
  lhsContracting := [2]
  rhsContracting := [0]
  lhsNonContracting := [0, 1]
  rhsNonContracting := [1]
  lhsBatch := []
  rhsBatch := []
  wf := dot_S512x512x128_S128x1_S512x512x1_2_0_01_1_n_n_wf

class Facts : Prop extends Facts₀ where

variable [Facts]
-- ==== Proof.SharedBody.lean ====
/-
  The kernel region of the pairwise decoder, one grid point at a time.

  The grid is 4 × 4; point (a, b) handles the 128 × 128 tile of ordered node pairs (i, j) with i in row block a and
  j in row block b. Seven windows: the hidden rows h twice (block a for the i side, block b for the j side — ONE
  array read through two windows), the two precomputed per-node terms (block a of the first, block b of the
  second), the whole difference block of the first decoder layer, the whole second-layer row, and the output tile.

  This module says what the arrays hold when the region is entered (the host operations before it, composed), what
  the body stores into the output tile as a function of the six input blocks (`out6`: its single store covers the
  tile), that the body run on the staging buffers does exactly that (`sound_kernel`), and packages it as the
  pipeline's per-point data: every input buffer holds its block at every point whether or not it was fetched there,
  the output buffer ends at `out6` of the blocks. The shared array is held by its two windows at the two halves of
  the full share.
-/
import proofs.«143030_j27152783245644_2_alg».proof.Proof.Gen.KernelIdeal.Launch
import proofs.«143030_j27152783245644_2_alg».proof.Proof.Gen.KernelIdeal.Skeleton
import proofs.«143030_j27152783245644_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem arrRefs_eq : Finset.univ.image (Pipeline.arrRef spec0) = [main_v9, main_v17, main_v18, main_v13, main_v19, main_v20].toFinset := by decide

/-! ## blocks, body -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev rA : Rect S128x128 := Rect.unit (s := S128x128) ![0, 0] S128x128.size inb_S128x128_S128x128_0_0
abbrev rB : Rect S1x128 := Rect.unit (s := S1x128) ![0, 0] S1x128.size inb_S1x128_S1x128_0_0

def out6 (x0 x1 x2 x3 : Vec F S128x128 .f32) (x4 : Vec F S128x128 .bf16) (x5 : Vec F S1x128 .f32) : Vec F S128x128 .f32 :=
  View.canon [⟨rA, k0_pay1 (View.ld x0 rA) (View.ld x1 rA) (View.ld x4 rA) (View.ld x2 rA) (View.ld x3 rA) (View.ld x5 rB)⟩]

theorem cover6 (p0 : Vec F S128x128 .f32) (y : S128x128.Idx) :
    ∃ pc ∈ ([⟨rA, p0⟩] : List (View.Piece (Elt F) S128x128 .f32)), y ∈ pc.1.set :=
  View.cover_of_tiled [⟨rA, p0⟩] S128x128.size (by rfl) y

set_option maxHeartbeats 1000000 in
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S128x128 .bf16) (harg6 : arg6.IsWhole) (arg7 : Memref sig .tc .vmem S1x128 .f32) (harg7 : arg7.IsWhole)
    (arg8 : Memref sig .tc .vmem S128x128 .f32) (harg8 : arg8.IsWhole)
    (x0 x1 x2 x3 : Vec F S128x128 .f32) (x4 : Vec F S128x128 .bf16) (x5 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.KernelIdeal.Shared

end
-- ==== Proof.SharedLaunch.lean ====
/-
  The run of @main around the pairwise decoder's region, with the hidden rows' array read through two windows.

  The host operations before the region run within the unscoped buffers; the region takes the windows' arrays — the
  buffer behind the two windows on the hidden rows split into two half shares, one per window, every other array
  whole — and gives them back at its exit: the inputs unchanged, the result array at what the write-backs made of it.
  The two halves are joined again, and the host operations after the region (the final bias added to the result)
  run within all the unscoped buffers once more. Read at the end: every buffer that is no window's array holds the
  value those last operations compute from the region's exit; in particular the nine arguments are as launched.
-/
import proofs.«143030_j27152783245644_2_alg».proof.Proof.Gen.KernelIdeal.Launch
import proofs.«143030_j27152783245644_2_alg».proof.Proof.Gen.KernelIdeal.Skeleton
import proofs.«143030_j27152783245644_2_alg».proof.Proof.Gen.KernelIdeal.Points
import proofs.«143030_j27152783245644_2_alg».proof.Proof.SharedBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What the unscoped buffers hold when the region is left: the region's result array at what the write-backs made
    of it, every other buffer as the region found it. -/
abbrev Wexit (c : Dev nD) : Valuation τ sig (Elt F) :=
  Function.update (V0 m c) (Proc.devRef .tc main_v20) ((dats m 0 c).arrAt 6 cfg0.N)
/-- and after the host operations that follow the region. -/
abbrev Wend (c : Dev nD) : Valuation τ sig (Elt F) := StableHlo.after (List.flatten [hostOps1]) (Wexit m c)

/-- The share each window holds its array at: the two windows on the hidden rows a half each. -/
def sh : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

theorem share_eq (c : Dev nD) : ∀ w, (dats m 0 c).share w = sh w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem arrays_eq' (c : Dev nD) (Wv : (b : Ref sig .tc) → Buf (Elt F) ((c.tc : Thread nD τ).loc b))
    (G : (w : Fin cfg0.W) → Buf (Elt F) ((cfg0.win w).arr.view.loc (c.tc : Thread nD τ)))
    (hG : ∀ w, G w = Wv (Pipeline.arrRef spec0 w)) :
    ((dats m 0 c).arrays G : sProp 𝕄)
      = bigSep Finset.univ fun w : Fin 7 => (((c.tc : Thread nD τ).loc (Pipeline.arrRef spec0 w)) ↦{sh w} Wv (Pipeline.arrRef spec0 w) : sProp 𝕄) := by
  unfold Dat.arrays
  exact bigSep_congr fun w _ => by rw [(arr_whole0 w).set_eq_univ, share_eq, hG w]

theorem arrays_chain (c : Dev nD) (Wv : (b : Ref sig .tc) → Buf (Elt F) ((c.tc : Thread nD τ).loc b)) :
    (bigSep Finset.univ fun w : Fin 7 => (((c.tc : Thread nD τ).loc (Pipeline.arrRef spec0 w)) ↦{sh w} Wv (Pipeline.arrRef spec0 w) : sProp 𝕄))
      = iprop(((c.tc : Thread nD τ).loc main_v9 ↦{fullShare.left} Wv main_v9) ∗ ((c.tc : Thread nD τ).loc main_v9 ↦{fullShare.right} Wv main_v9)
      ∗ ((c.tc : Thread nD τ).loc main_v17 ↦{fullShare} Wv main_v17)
      ∗ ((c.tc : Thread nD τ).loc main_v18 ↦{fullShare} Wv main_v18) ∗ ((c.tc : Thread nD τ).loc main_v13 ↦{fullShare} Wv main_v13)
      ∗ ((c.tc : Thread nD τ).loc main_v19 ↦{fullShare} Wv main_v19) ∗ ((c.tc : Thread nD τ).loc main_v20 ↦{fullShare} Wv main_v20)) :=
  bigSep_W0 _

theorem arrBufs_chain (c : Dev nD) (Wv : (b : Ref sig .tc) → Buf (Elt F) ((c.tc : Thread nD τ).loc b)) :
    (Pipeline.arrBufs (Ix := Unit) (Name := ℕ) (U := UR sig nD τ) (Lvl := ℕ) spec0 c Wv : sProp 𝕄)
      = iprop(((c.tc : Thread nD τ).loc main_v9 ↦{fullShare} Wv main_v9) ∗ ((c.tc : Thread nD τ).loc main_v17 ↦{fullShare} Wv main_v17)
      ∗ ((c.tc : Thread nD τ).loc main_v18 ↦{fullShare} Wv main_v18) ∗ ((c.tc : Thread nD τ).loc main_v13 ↦{fullShare} Wv main_v13)
      ∗ ((c.tc : Thread nD τ).loc main_v19 ↦{fullShare} Wv main_v19) ∗ ((c.tc : Thread nD τ).loc main_v20 ↦{fullShare} Wv main_v20)) := by
  classical
  unfold Pipeline.arrBufs
  exact bigSep_eq_bigSepL_of_eq _ arrRefs_eq (by decide) _

/-- The six distinct buffers behind the seven windows' arrays, each whole at the full share, are the windows' arrays at
    their shares: the hidden rows' buffer, which windows 0 and 1 both read, is dealt to them in two halves. -/
theorem arrays_iff (c : Dev nD) (Wv : (b : Ref sig .tc) → Buf (Elt F) ((c.tc : Thread nD τ).loc b))
    (G : (w : Fin cfg0.W) → Buf (Elt F) ((cfg0.win w).arr.view.loc (c.tc : Thread nD τ)))
    (hG : ∀ w, G w = Wv (Pipeline.arrRef spec0 w)) :
    (Pipeline.arrBufs (Ix := Unit) (Name := ℕ) (U := UR sig nD τ) (Lvl := ℕ) spec0 c Wv : sProp 𝕄) ⊣⊢ (dats m 0 c).arrays G := by
  rw [arrays_eq' m c Wv G hG, arrays_chain, arrBufs_chain]
  refine ⟨?_, ?_⟩
  · iintro ⟨H9, H17, H18, H13, H19, H20⟩
    ihave H := (pointsTo_share (PosShare.mem_left_op_right fullShare)).1 $$ H9
    icases H with ⟨Ha, Hb⟩
    isplitl [Ha]; · iexact Ha
    isplitl [Hb]; · iexact Hb
    isplitl [H17]; · iexact H17
    isplitl [H18]; · iexact H18
    isplitl [H13]; · iexact H13
    isplitl [H19]; · iexact H19
    iexact H20
  · iintro ⟨Ha, Hb, H17, H18, H13, H19, H20⟩
    isplitl [Ha Hb]
    · iapply (pointsTo_share (PosShare.mem_left_op_right fullShare)).2
      isplitl [Ha]; · iexact Ha
      iexact Hb
    isplitl [H17]; · iexact H17
    isplitl [H18]; · iexact H18
    isplitl [H13]; · iexact H13
    isplitl [H19]; · iexact H19
    iexact H20

/-! ## Host operations that leave a buffer alone -/

theorem tail_main_arg0 (W : Valuation τ sig (Elt F)) :
    StableHlo.after (List.flatten [hostOps1]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg2 (W : Valuation τ sig (Elt F)) :
    StableHlo.after (List.flatten [hostOps1]) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg3 (W : Valuation τ sig (Elt F)) :
    StableHlo.after (List.flatten [hostOps1]) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg4 (W : Valuation τ sig (Elt F)) :
    StableHlo.after (List.flatten [hostOps1]) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg5 (W : Valuation τ sig (Elt F)) :
    StableHlo.after (List.flatten [hostOps1]) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg6 (W : Valuation τ sig (Elt F)) :
    StableHlo.after (List.flatten [hostOps1]) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg7 (W : Valuation τ sig (Elt F)) :
    StableHlo.after (List.flatten [hostOps1]) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg8 (W : Valuation τ sig (Elt F)) :
    StableHlo.after (List.flatten [hostOps1]) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v9 (W : Valuation τ sig (Elt F)) :
    StableHlo.after (List.flatten [hostOps1]) W (Proc.devRef .tc main_v9) = W (Proc.devRef .tc main_v9) :=
  StableHlo.after_of_forall_not_mem (b := Proc.devRef .tc main_v9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v17 (W : Valuation τ sig (Elt F)) :
    StableHlo.after (List.flatten [hostOps1]) W (Proc.devRef .tc main_v17) = W (Proc.devRef .tc main_v17) :=
  StableHlo.after_of_forall_not_mem (b := Proc.devRef .tc main_v17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v18 (W : Valuation τ sig (Elt F)) :
    StableHlo.after (List.flatten [hostOps1]) W (Proc.devRef .tc main_v18) = W (Proc.devRef .tc main_v18) :=
  StableHlo.after_of_forall_not_mem (b := Proc.devRef .tc main_v18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v13 (W : Valuation τ sig (Elt F)) :
    StableHlo.after (List.flatten [hostOps1]) W (Proc.devRef .tc main_v13) = W (Proc.devRef .tc main_v13) :=
  StableHlo.after_of_forall_not_mem (b := Proc.devRef .tc main_v13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v19 (W : Valuation τ sig (Elt F)) :
    StableHlo.after (List.flatten [hostOps1]) W (Proc.devRef .tc main_v19) = W (Proc.devRef .tc main_v19) :=
  StableHlo.after_of_forall_not_mem (b := Proc.devRef .tc main_v19) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v20 (W : Valuation τ sig (Elt F)) :
    StableHlo.after (List.flatten [hostOps1]) W (Proc.devRef .tc main_v20) = W (Proc.devRef .tc main_v20) :=
  StableHlo.after_of_forall_not_mem (b := Proc.devRef .tc main_v20) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg0 (W : Valuation τ sig (Elt F)) :
    StableHlo.after (List.flatten [hostOps0, hostOps0_1, hostOps0_2, hostOps0_3, hostOps0_4]) W (Proc.devRef .tc main_arg0) = W (Proc.devRef .tc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg1 (W : Valuation τ sig (Elt F)) :
    StableHlo.after (List.flatten [hostOps0, hostOps0_1, hostOps0_2, hostOps0_3, hostOps0_4]) W (Proc.devRef .tc main_arg1) = W (Proc.devRef .tc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg2 (W : Valuation τ sig (Elt F)) :
    StableHlo.after (List.flatten [hostOps0, hostOps0_1, hostOps0_2, hostOps0_3, hostOps0_4]) W (Proc.devRef .tc main_arg2) = W (Proc.devRef .tc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg3 (W : Valuation τ sig (Elt F)) :
    StableHlo.after (List.flatten [hostOps0, hostOps0_1, hostOps0_2, hostOps0_3, hostOps0_4]) W (Proc.devRef .tc main_arg3) = W (Proc.devRef .tc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg4 (W : Valuation τ sig (Elt F)) :
    StableHlo.after (List.flatten [hostOps0, hostOps0_1, hostOps0_2, hostOps0_3, hostOps0_4]) W (Proc.devRef .tc main_arg4) = W (Proc.devRef .tc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg5 (W : Valuation τ sig (Elt F)) :
    StableHlo.after (List.flatten [hostOps0, hostOps0_1, hostOps0_2, hostOps0_3, hostOps0_4]) W (Proc.devRef .tc main_arg5) = W (Proc.devRef .tc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg6 (W : Valuation τ sig (Elt F)) :
    StableHlo.after (List.flatten [hostOps0, hostOps0_1, hostOps0_2, hostOps0_3, hostOps0_4]) W (Proc.devRef .tc main_arg6) = W (Proc.devRef .tc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg7 (W : Valuation τ sig (Elt F)) :
    StableHlo.after (List.flatten [hostOps0, hostOps0_1, hostOps0_2, hostOps0_3, hostOps0_4]) W (Proc.devRef .tc main_arg7) = W (Proc.devRef .tc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg8 (W : Valuation τ sig (Elt F)) :
    StableHlo.after (List.flatten [hostOps0, hostOps0_1, hostOps0_2, hostOps0_3, hostOps0_4]) W (Proc.devRef .tc main_arg8) = W (Proc.devRef .tc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The region's exit and the host operations after it -/

/-- The same read at a TensorCore reference. -/
abbrev Vexit (c : Dev nD) (b : Ref sig .tc) : Buf (Elt F) ((c : Thread nD τ).loc b) := Wexit m c (Proc.devRef .tc b)
abbrev Vend (c : Dev nD) (b : Ref sig .tc) : Buf (Elt F) ((c : Thread nD τ).loc b) := Wend m c (Proc.devRef .tc b)

/-- Every window's array ends the region at the exit contents: an input array is never written, the output array is
    the one buffer the exit contents change. -/
theorem exitN (c : Dev nD) : ∀ w, (dats m 0 c).arrAt w cfg0.N = Vexit m c (Pipeline.arrRef spec0 w)
  | ⟨0, _⟩ => ((dats m 0 c).arrAt_in 0 rfl _).trans ((A_eq m c 0).trans (Function.update_of_ne (StableHlo.devRef_ne_of_ne (by decide)) _ _).symm)
  | ⟨1, _⟩ => ((dats m 0 c).arrAt_in 1 rfl _).trans ((A_eq m c 1).trans (Function.update_of_ne (StableHlo.devRef_ne_of_ne (by decide)) _ _).symm)
  | ⟨2, _⟩ => ((dats m 0 c).arrAt_in 2 rfl _).trans ((A_eq m c 2).trans (Function.update_of_ne (StableHlo.devRef_ne_of_ne (by decide)) _ _).symm)
  | ⟨3, _⟩ => ((dats m 0 c).arrAt_in 3 rfl _).trans ((A_eq m c 3).trans (Function.update_of_ne (StableHlo.devRef_ne_of_ne (by decide)) _ _).symm)
  | ⟨4, _⟩ => ((dats m 0 c).arrAt_in 4 rfl _).trans ((A_eq m c 4).trans (Function.update_of_ne (StableHlo.devRef_ne_of_ne (by decide)) _ _).symm)
  | ⟨5, _⟩ => ((dats m 0 c).arrAt_in 5 rfl _).trans ((A_eq m c 5).trans (Function.update_of_ne (StableHlo.devRef_ne_of_ne (by decide)) _ _).symm)
  | ⟨6, _⟩ => show (dats m 0 c).arrAt 6 cfg0.N
      = Function.update (V0 m c) (Proc.devRef .tc main_v20) ((dats m 0 c).arrAt 6 cfg0.N) (Proc.devRef .tc main_v20) from
    (Function.update_self (β := fun b : DevRef τ sig => b.ty.Contents (Elt F)) (Proc.devRef (τ := τ) .tc main_v20) ((dats m 0 c).arrAt 6 cfg0.N) (V0 m c)).symm

/-- and the host operations after the region write none of them. -/
theorem endN (c : Dev nD) : ∀ w, (dats m 0 c).arrAt w cfg0.N = Vend m c (Pipeline.arrRef spec0 w)
  | ⟨0, _⟩ => (exitN m c 0).trans (tail_main_v9 _).symm
  | ⟨1, _⟩ => (exitN m c 1).trans (tail_main_v9 _).symm
  | ⟨2, _⟩ => (exitN m c 2).trans (tail_main_v17 _).symm
  | ⟨3, _⟩ => (exitN m c 3).trans (tail_main_v18 _).symm
  | ⟨4, _⟩ => (exitN m c 4).trans (tail_main_v13 _).symm
  | ⟨5, _⟩ => (exitN m c 5).trans (tail_main_v19 _).symm
  | ⟨6, _⟩ => (exitN m c 6).trans (tail_main_v20 _).symm

/-- Off the windows' arrays the exit contents are the entry contents. -/
theorem rest_exit (c : Dev nD) :
    (Pipeline.unscopedRest (Ix := Unit) (Name := ℕ) (U := UR sig nD τ) (Lvl := ℕ) spec0 c (Vexit m c) : sProp 𝕄)
      = Pipeline.unscopedRest spec0 c (V m c) := by
  classical
  unfold Pipeline.unscopedRest
  refine bigSep_congr fun b hb => ?_
  have hne : Proc.devRef (τ := τ) .tc b ≠ Proc.devRef .tc main_v20 := fun e =>
    (Finset.mem_sdiff.mp hb).2 (Finset.mem_image.mpr ⟨6, Finset.mem_univ _, (Proc.devRef_injective (τ := τ) _ e).symm⟩)
  rw [show Vexit m c b = V m c b from Function.update_of_ne hne _ _]

/-- The unscoped buffers held at a valuation are the windows' arrays at their shares and the other unscoped buffers. -/
theorem held_split (c : Dev nD) (Wv : Valuation τ sig (Elt F)) :
    (StableHlo.held (c.tc : Thread nD τ) (Pipeline.ucRefs τ sig) Wv : sProp 𝕄)
      = iprop(Pipeline.arrBufs (Ix := Unit) (Name := ℕ) (U := UR sig nD τ) (Lvl := ℕ) spec0 c (fun b => Wv (Proc.devRef .tc b))
          ∗ Pipeline.unscopedRest spec0 c (fun b => Wv (Proc.devRef .tc b))) :=
  (Pipeline.unscopedBufs_held (Ix := Unit) (Name := ℕ) (U := UR sig nD τ) (Lvl := ℕ) c Wv).symm.trans
    (Pipeline.unscopedBufs_split₀ cfgs (0 : Fin 1) winFacts₀0.arr_unscoped c _)

set_option backward.isDefEq.respectTransparency.types false in
/-- The host operations after the region, run from the region's exit: they touch unscoped buffers only, so they run
    within all of them — the windows' arrays put back together from their shares — and leave the arrays as they were. -/
theorem tail_run (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  have h1 : iprop((dats m 0 c).arrays ((dats m 0 c).arrAt · cfg0.N) ∗ Pipeline.unscopedRest spec0 c (V m c))
      ⊢ (StableHlo.held (c.tc : Thread nD τ) (Pipeline.ucRefs τ sig) (Wexit m c) : sProp 𝕄) := by
    rw [held_split, rest_exit]
    iintro ⟨Ha, Hz⟩
    isplitl [Ha]
    · iapply (arrays_iff m c (Vexit m c) _ (exitN m c)).2; iexact Ha
    iexact Hz
  have h2 : (StableHlo.held (c.tc : Thread nD τ) (Pipeline.ucRefs τ sig) (Wend m c) : sProp 𝕄)
      ⊢ iprop((dats m 0 c).arrays ((dats m 0 c).arrAt · cfg0.N) ∗ Pipeline.unscopedRest spec0 c (Vend m c)) := by
    rw [held_split]
    iintro ⟨Ha, Hz⟩
    isplitl [Ha]
    · iapply (arrays_iff m c (Vend m c) _ (endN m c)).1; iexact Ha
    iexact Hz
  iintro ⟨Hk, Hb, Ha, Hz⟩
  ihave Hh := h1 $$ [Ha Hz]
  · isplitl [Ha]; · iexact Ha
    iexact Hz
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iapply (Pipeline.wp_seqs_then (pcfgs (F := F)) defs₀ Variants.none c (Pipeline.ucRefs τ sig) [] [hostOps1]
    (fun ops ho op h => Pipeline.sub_ucRefs op ((List.forall_iff_forall_mem.mp (by
      simp only [List.mem_cons, List.mem_nil_iff, or_false] at ho; subst ho; exact hostOps1_sub)) op h))
    (fun ops ho op h => (List.forall_iff_forall_mem.mp (by
      simp only [List.mem_cons, List.mem_nil_iff, or_false] at ho; subst ho; exact hostOps1_fresh)) op h) (Wexit m c)) $$ [Hb Hh]
  · isplitl [Hb]; · iexact Hb
    iexact Hh
  iintro ⟨-, Hh⟩
  rw [Pipeline.chain_nil, wp_pure]
  imodintro
  iapply Hk
  iapply h2; iexact Hh

/-! ## The run -/

theorem Phi_eq (c : Dev nD) (t : Fin (cfg0.N + 1)) : (dats m 0 c).Φ t
    = Pipeline.scopedRest (Ix := Unit) (Name := ℕ) (U := UR sig nD τ) (Lvl := ℕ) (Val := Elt F) spec0 c := rfl

set_option backward.isDefEq.respectTransparency.types false in
/-- Every weakly fair execution of @main terminates, without a fault, and every unscoped buffer that is no window's
    array ends at the host operations' contents computed from the region's exit. -/
theorem run_main : θ_run (defs (F := F)) (onTc (τ := τ) (main (F := F))) (s₀ m ρ)
    (fun r => ∀ c : Dev nD, ∀ b ∈ Pipeline.restRefs sig spec0, r.2.mem ((c.tc : Thread nD τ).loc b) = Vend m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := fun c => (arrays_iff m c (V m c) _ (fun w => A_eq m c w)).1)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro H; isplitr; · iempintro
      iexact H)
    (hin := fun c => by
      rw [Phi_eq]
      iintro ⟨-, -, HR⟩; iexact HR)
    (hout := fun c => by
      rw [Phi_eq]
      iintro H; isplitr; · iempintro
      iexact H)
    (htail := fun c Q' => tail_run m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => (h c).2.2)

/-! ## What the run leaves in the arguments and in the result -/

theorem Vend_arg0 (c : Dev nD) : Vend m c main_arg0 = m ((c.tc : Thread nD τ).loc main_arg0) :=
  (tail_main_arg0 _).trans ((Function.update_of_ne (StableHlo.devRef_ne_of_ne (by decide)) _ _).trans (pre_main_arg0 _))
theorem Vend_arg1 (c : Dev nD) : Vend m c main_arg1 = m ((c.tc : Thread nD τ).loc main_arg1) :=
  (tail_main_arg1 _).trans ((Function.update_of_ne (StableHlo.devRef_ne_of_ne (by decide)) _ _).trans (pre_main_arg1 _))
theorem Vend_arg2 (c : Dev nD) : Vend m c main_arg2 = m ((c.tc : Thread nD τ).loc main_arg2) :=
  (tail_main_arg2 _).trans ((Function.update_of_ne (StableHlo.devRef_ne_of_ne (by decide)) _ _).trans (pre_main_arg2 _))
theorem Vend_arg3 (c : Dev nD) : Vend m c main_arg3 = m ((c.tc : Thread nD τ).loc main_arg3) :=
  (tail_main_arg3 _).trans ((Function.update_of_ne (StableHlo.devRef_ne_of_ne (by decide)) _ _).trans (pre_main_arg3 _))
theorem Vend_arg4 (c : Dev nD) : Vend m c main_arg4 = m ((c.tc : Thread nD τ).loc main_arg4) :=
  (tail_main_arg4 _).trans ((Function.update_of_ne (StableHlo.devRef_ne_of_ne (by decide)) _ _).trans (pre_main_arg4 _))
theorem Vend_arg5 (c : Dev nD) : Vend m c main_arg5 = m ((c.tc : Thread nD τ).loc main_arg5) :=
  (tail_main_arg5 _).trans ((Function.update_of_ne (StableHlo.devRef_ne_of_ne (by decide)) _ _).trans (pre_main_arg5 _))
theorem Vend_arg6 (c : Dev nD) : Vend m c main_arg6 = m ((c.tc : Thread nD τ).loc main_arg6) :=
  (tail_main_arg6 _).trans ((Function.update_of_ne (StableHlo.devRef_ne_of_ne (by decide)) _ _).trans (pre_main_arg6 _))
theorem Vend_arg7 (c : Dev nD) : Vend m c main_arg7 = m ((c.tc : Thread nD τ).loc main_arg7) :=
  (tail_main_arg7 _).trans ((Function.update_of_ne (StableHlo.devRef_ne_of_ne (by decide)) _ _).trans (pre_main_arg7 _))
theorem Vend_arg8 (c : Dev nD) : Vend m c main_arg8 = m ((c.tc : Thread nD τ).loc main_arg8) :=
  (tail_main_arg8 _).trans ((Function.update_of_ne (StableHlo.devRef_ne_of_ne (by decide)) _ _).trans (pre_main_arg8 _))

/-- The run, read at the result and at the nine arguments: the result buffer ends at the host operations' value from
    the region's exit, every argument as launched. -/
theorem run_all : θ_run (defs (F := F)) (onTc (τ := τ) (main (F := F))) ⟨m, fun _ => 0, ρ⟩ (fun r => ∀ c : Dev nD,
      r.2.mem ((c.tc : Thread nD τ).loc main_v23) = Vend m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c) main_v23 (Pipeline.mem_restRefs_of main_v23 (by decide) (by decide)),
     ((h c) main_arg0 (Pipeline.mem_restRefs_of main_arg0 (by decide) (by decide))).trans (Vend_arg0 m c),
     ((h c) main_arg1 (Pipeline.mem_restRefs_of main_arg1 (by decide) (by decide))).trans (Vend_arg1 m c),
     ((h c) main_arg2 (Pipeline.mem_restRefs_of main_arg2 (by decide) (by decide))).trans (Vend_arg2 m c),
     ((h c) main_arg3 (Pipeline.mem_restRefs_of main_arg3 (by decide) (by decide))).trans (Vend_arg3 m c),
     ((h c) main_arg4 (Pipeline.mem_restRefs_of main_arg4 (by decide) (by decide))).trans (Vend_arg4 m c),
     ((h c) main_arg5 (Pipeline.mem_restRefs_of main_arg5 (by decide) (by decide))).trans (Vend_arg5 m c),
     ((h c) main_arg6 (Pipeline.mem_restRefs_of main_arg6 (by decide) (by decide))).trans (Vend_arg6 m c),
     ((h c) main_arg7 (Pipeline.mem_restRefs_of main_arg7 (by decide) (by decide))).trans (Vend_arg7 m c),
     ((h c) main_arg8 (Pipeline.mem_restRefs_of main_arg8 (by decide) (by decide))).trans (Vend_arg8 m c)⟩) (run_main m ρ)

/-- The frame: @main runs to the end without a fault and the nine argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.KernelIdeal.Shared

end
-- ==== Proof.WordBody.lean ====
/-
  The kernel region of the pairwise decoder as printed (read at any float instance), one grid point at a time.

  The grid is 4 × 4; point (a, b) handles the 128 × 128 tile of ordered node pairs (i, j) with i in row block a and
  j in row block b. Seven windows: the hidden rows h twice (block a for the i side, block b for the j side — ONE
  array read through two windows), the two precomputed per-node terms (block a of the first, block b of the
  second), the whole difference block of the first decoder layer, the whole second-layer row, and the output tile.

  This module says what the arrays hold when the region is entered (the host operations before it, composed), what
  the body stores into the output tile as a function of the six input blocks (`out6`: its single store covers the
  tile), that the body run on the staging buffers does exactly that (`sound_kernel`), and packages it as the
  pipeline's per-point data: every input buffer holds its block at every point whether or not it was fetched there,
  the output buffer ends at `out6` of the blocks. The shared array is held by its two windows at the two halves of
  the full share.
-/
import proofs.«143030_j27152783245644_2_alg».proof.Proof.Gen.Kernel.Launch
import proofs.«143030_j27152783245644_2_alg».proof.Proof.Gen.Kernel.Skeleton
import proofs.«143030_j27152783245644_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem arrRefs_eq : Finset.univ.image (Pipeline.arrRef spec0) = [main_v9, main_v17, main_v18, main_v13, main_v19, main_v20].toFinset := by decide

/-! ## blocks, body -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev rA : Rect S128x128 := Rect.unit (s := S128x128) ![0, 0] S128x128.size inb_S128x128_S128x128_0_0
abbrev rB : Rect S1x128 := Rect.unit (s := S1x128) ![0, 0] S1x128.size inb_S1x128_S1x128_0_0

def out6 (x0 x1 x2 x3 : Vec F S128x128 .f32) (x4 : Vec F S128x128 .bf16) (x5 : Vec F S1x128 .f32) : Vec F S128x128 .f32 :=
  View.canon [⟨rA, k0_pay1 (View.ld x0 rA) (View.ld x1 rA) (View.ld x4 rA) (View.ld x2 rA) (View.ld x3 rA) (View.ld x5 rB)⟩]

theorem cover6 (p0 : Vec F S128x128 .f32) (y : S128x128.Idx) :
    ∃ pc ∈ ([⟨rA, p0⟩] : List (View.Piece (Elt F) S128x128 .f32)), y ∈ pc.1.set :=
  View.cover_of_tiled [⟨rA, p0⟩] S128x128.size (by rfl) y

set_option maxHeartbeats 1000000 in
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S128x128 .bf16) (harg6 : arg6.IsWhole) (arg7 : Memref sig .tc .vmem S1x128 .f32) (harg7 : arg7.IsWhole)
    (arg8 : Memref sig .tc .vmem S128x128 .f32) (harg8 : arg8.IsWhole)
    (x0 x1 x2 x3 : Vec F S128x128 .f32) (x4 : Vec F S128x128 .bf16) (x5 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.Kernel.Shared

end
-- ==== Proof.WordLaunch.lean ====
/-
  The run of the printed @main (read at any float instance) around the pairwise decoder's region, with the hidden rows' array read through two windows.

  The host operations before the region run within the unscoped buffers; the region takes the windows' arrays — the
  buffer behind the two windows on the hidden rows split into two half shares, one per window, every other array
  whole — and gives them back at its exit: the inputs unchanged, the result array at what the write-backs made of it.
  The two halves are joined again, and the host operations after the region (the final bias added to the result)
  run within all the unscoped buffers once more. Read at the end: every buffer that is no window's array holds the
  value those last operations compute from the region's exit; in particular the nine arguments are as launched.
-/
import proofs.«143030_j27152783245644_2_alg».proof.Proof.Gen.Kernel.Launch
import proofs.«143030_j27152783245644_2_alg».proof.Proof.Gen.Kernel.Skeleton
import proofs.«143030_j27152783245644_2_alg».proof.Proof.Gen.Kernel.Points
import proofs.«143030_j27152783245644_2_alg».proof.Proof.WordBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What the unscoped buffers hold when the region is left: the region's result array at what the write-backs made
    of it, every other buffer as the region found it. -/
abbrev Wexit (c : Dev nD) : Valuation τ sig (Elt F) :=
  Function.update (V0 m c) (Proc.devRef .tc main_v20) ((dats m 0 c).arrAt 6 cfg0.N)
/-- and after the host operations that follow the region. -/
abbrev Wend (c : Dev nD) : Valuation τ sig (Elt F) := StableHlo.after (List.flatten [hostOps1]) (Wexit m c)

/-- The share each window holds its array at: the two windows on the hidden rows a half each. -/
def sh : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

theorem share_eq (c : Dev nD) : ∀ w, (dats m 0 c).share w = sh w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem arrays_eq' (c : Dev nD) (Wv : (b : Ref sig .tc) → Buf (Elt F) ((c.tc : Thread nD τ).loc b))
    (G : (w : Fin cfg0.W) → Buf (Elt F) ((cfg0.win w).arr.view.loc (c.tc : Thread nD τ)))
    (hG : ∀ w, G w = Wv (Pipeline.arrRef spec0 w)) :
    ((dats m 0 c).arrays G : sProp 𝕄)
      = bigSep Finset.univ fun w : Fin 7 => (((c.tc : Thread nD τ).loc (Pipeline.arrRef spec0 w)) ↦{sh w} Wv (Pipeline.arrRef spec0 w) : sProp 𝕄) := by
  unfold Dat.arrays
  exact bigSep_congr fun w _ => by rw [(arr_whole0 w).set_eq_univ, share_eq, hG w]

theorem arrays_chain (c : Dev nD) (Wv : (b : Ref sig .tc) → Buf (Elt F) ((c.tc : Thread nD τ).loc b)) :
    (bigSep Finset.univ fun w : Fin 7 => (((c.tc : Thread nD τ).loc (Pipeline.arrRef spec0 w)) ↦{sh w} Wv (Pipeline.arrRef spec0 w) : sProp 𝕄))
      = iprop(((c.tc : Thread nD τ).loc main_v9 ↦{fullShare.left} Wv main_v9) ∗ ((c.tc : Thread nD τ).loc main_v9 ↦{fullShare.right} Wv main_v9)
      ∗ ((c.tc : Thread nD τ).loc main_v17 ↦{fullShare} Wv main_v17)
      ∗ ((c.tc : Thread nD τ).loc main_v18 ↦{fullShare} Wv main_v18) ∗ ((c.tc : Thread nD τ).loc main_v13 ↦{fullShare} Wv main_v13)
      ∗ ((c.tc : Thread nD τ).loc main_v19 ↦{fullShare} Wv main_v19) ∗ ((c.tc : Thread nD τ).loc main_v20 ↦{fullShare} Wv main_v20)) :=
  bigSep_W0 _

theorem arrBufs_chain (c : Dev nD) (Wv : (b : Ref sig .tc) → Buf (Elt F) ((c.tc : Thread nD τ).loc b)) :
    (Pipeline.arrBufs (Ix := Unit) (Name := ℕ) (U := UR sig nD τ) (Lvl := ℕ) spec0 c Wv : sProp 𝕄)
      = iprop(((c.tc : Thread nD τ).loc main_v9 ↦{fullShare} Wv main_v9) ∗ ((c.tc : Thread nD τ).loc main_v17 ↦{fullShare} Wv main_v17)
      ∗ ((c.tc : Thread nD τ).loc main_v18 ↦{fullShare} Wv main_v18) ∗ ((c.tc : Thread nD τ).loc main_v13 ↦{fullShare} Wv main_v13)
      ∗ ((c.tc : Thread nD τ).loc main_v19 ↦{fullShare} Wv main_v19) ∗ ((c.tc : Thread nD τ).loc main_v20 ↦{fullShare} Wv main_v20)) := by
  classical
  unfold Pipeline.arrBufs
  exact bigSep_eq_bigSepL_of_eq _ arrRefs_eq (by decide) _

/-- The six distinct buffers behind the seven windows' arrays, each whole at the full share, are the windows' arrays at
    their shares: the hidden rows' buffer, which windows 0 and 1 both read, is dealt to them in two halves. -/
theorem arrays_iff (c : Dev nD) (Wv : (b : Ref sig .tc) → Buf (Elt F) ((c.tc : Thread nD τ).loc b))
    (G : (w : Fin cfg0.W) → Buf (Elt F) ((cfg0.win w).arr.view.loc (c.tc : Thread nD τ)))
    (hG : ∀ w, G w = Wv (Pipeline.arrRef spec0 w)) :
    (Pipeline.arrBufs (Ix := Unit) (Name := ℕ) (U := UR sig nD τ) (Lvl := ℕ) spec0 c Wv : sProp 𝕄) ⊣⊢ (dats m 0 c).arrays G := by
  rw [arrays_eq' m c Wv G hG, arrays_chain, arrBufs_chain]
  refine ⟨?_, ?_⟩
  · iintro ⟨H9, H17, H18, H13, H19, H20⟩
    ihave H := (pointsTo_share (PosShare.mem_left_op_right fullShare)).1 $$ H9
    icases H with ⟨Ha, Hb⟩
    isplitl [Ha]; · iexact Ha
    isplitl [Hb]; · iexact Hb
    isplitl [H17]; · iexact H17
    isplitl [H18]; · iexact H18
    isplitl [H13]; · iexact H13
    isplitl [H19]; · iexact H19
    iexact H20
  · iintro ⟨Ha, Hb, H17, H18, H13, H19, H20⟩
    isplitl [Ha Hb]
    · iapply (pointsTo_share (PosShare.mem_left_op_right fullShare)).2
      isplitl [Ha]; · iexact Ha
      iexact Hb
    isplitl [H17]; · iexact H17
    isplitl [H18]; · iexact H18
    isplitl [H13]; · iexact H13
    isplitl [H19]; · iexact H19
    iexact H20

/-! ## Host operations that leave a buffer alone -/

theorem tail_main_arg0 (W : Valuation τ sig (Elt F)) :
    StableHlo.after (List.flatten [hostOps1]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg2 (W : Valuation τ sig (Elt F)) :
    StableHlo.after (List.flatten [hostOps1]) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg3 (W : Valuation τ sig (Elt F)) :
    StableHlo.after (List.flatten [hostOps1]) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg4 (W : Valuation τ sig (Elt F)) :
    StableHlo.after (List.flatten [hostOps1]) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg5 (W : Valuation τ sig (Elt F)) :
    StableHlo.after (List.flatten [hostOps1]) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg6 (W : Valuation τ sig (Elt F)) :
    StableHlo.after (List.flatten [hostOps1]) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg7 (W : Valuation τ sig (Elt F)) :
    StableHlo.after (List.flatten [hostOps1]) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_arg8 (W : Valuation τ sig (Elt F)) :
    StableHlo.after (List.flatten [hostOps1]) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v9 (W : Valuation τ sig (Elt F)) :
    StableHlo.after (List.flatten [hostOps1]) W (Proc.devRef .tc main_v9) = W (Proc.devRef .tc main_v9) :=
  StableHlo.after_of_forall_not_mem (b := Proc.devRef .tc main_v9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v17 (W : Valuation τ sig (Elt F)) :
    StableHlo.after (List.flatten [hostOps1]) W (Proc.devRef .tc main_v17) = W (Proc.devRef .tc main_v17) :=
  StableHlo.after_of_forall_not_mem (b := Proc.devRef .tc main_v17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v18 (W : Valuation τ sig (Elt F)) :
    StableHlo.after (List.flatten [hostOps1]) W (Proc.devRef .tc main_v18) = W (Proc.devRef .tc main_v18) :=
  StableHlo.after_of_forall_not_mem (b := Proc.devRef .tc main_v18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v13 (W : Valuation τ sig (Elt F)) :
    StableHlo.after (List.flatten [hostOps1]) W (Proc.devRef .tc main_v13) = W (Proc.devRef .tc main_v13) :=
  StableHlo.after_of_forall_not_mem (b := Proc.devRef .tc main_v13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v19 (W : Valuation τ sig (Elt F)) :
    StableHlo.after (List.flatten [hostOps1]) W (Proc.devRef .tc main_v19) = W (Proc.devRef .tc main_v19) :=
  StableHlo.after_of_forall_not_mem (b := Proc.devRef .tc main_v19) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_main_v20 (W : Valuation τ sig (Elt F)) :
    StableHlo.after (List.flatten [hostOps1]) W (Proc.devRef .tc main_v20) = W (Proc.devRef .tc main_v20) :=
  StableHlo.after_of_forall_not_mem (b := Proc.devRef .tc main_v20) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg0 (W : Valuation τ sig (Elt F)) :
    StableHlo.after (List.flatten [hostOps0, hostOps0_1, hostOps0_2, hostOps0_3, hostOps0_4]) W (Proc.devRef .tc main_arg0) = W (Proc.devRef .tc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg1 (W : Valuation τ sig (Elt F)) :
    StableHlo.after (List.flatten [hostOps0, hostOps0_1, hostOps0_2, hostOps0_3, hostOps0_4]) W (Proc.devRef .tc main_arg1) = W (Proc.devRef .tc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg2 (W : Valuation τ sig (Elt F)) :
    StableHlo.after (List.flatten [hostOps0, hostOps0_1, hostOps0_2, hostOps0_3, hostOps0_4]) W (Proc.devRef .tc main_arg2) = W (Proc.devRef .tc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg3 (W : Valuation τ sig (Elt F)) :
    StableHlo.after (List.flatten [hostOps0, hostOps0_1, hostOps0_2, hostOps0_3, hostOps0_4]) W (Proc.devRef .tc main_arg3) = W (Proc.devRef .tc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg4 (W : Valuation τ sig (Elt F)) :
    StableHlo.after (List.flatten [hostOps0, hostOps0_1, hostOps0_2, hostOps0_3, hostOps0_4]) W (Proc.devRef .tc main_arg4) = W (Proc.devRef .tc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg5 (W : Valuation τ sig (Elt F)) :
    StableHlo.after (List.flatten [hostOps0, hostOps0_1, hostOps0_2, hostOps0_3, hostOps0_4]) W (Proc.devRef .tc main_arg5) = W (Proc.devRef .tc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg6 (W : Valuation τ sig (Elt F)) :
    StableHlo.after (List.flatten [hostOps0, hostOps0_1, hostOps0_2, hostOps0_3, hostOps0_4]) W (Proc.devRef .tc main_arg6) = W (Proc.devRef .tc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg7 (W : Valuation τ sig (Elt F)) :
    StableHlo.after (List.flatten [hostOps0, hostOps0_1, hostOps0_2, hostOps0_3, hostOps0_4]) W (Proc.devRef .tc main_arg7) = W (Proc.devRef .tc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_main_arg8 (W : Valuation τ sig (Elt F)) :
    StableHlo.after (List.flatten [hostOps0, hostOps0_1, hostOps0_2, hostOps0_3, hostOps0_4]) W (Proc.devRef .tc main_arg8) = W (Proc.devRef .tc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The region's exit and the host operations after it -/

/-- The same read at a TensorCore reference. -/
abbrev Vexit (c : Dev nD) (b : Ref sig .tc) : Buf (Elt F) ((c : Thread nD τ).loc b) := Wexit m c (Proc.devRef .tc b)
abbrev Vend (c : Dev nD) (b : Ref sig .tc) : Buf (Elt F) ((c : Thread nD τ).loc b) := Wend m c (Proc.devRef .tc b)

/-- Every window's array ends the region at the exit contents: an input array is never written, the output array is
    the one buffer the exit contents change. -/
theorem exitN (c : Dev nD) : ∀ w, (dats m 0 c).arrAt w cfg0.N = Vexit m c (Pipeline.arrRef spec0 w)
  | ⟨0, _⟩ => ((dats m 0 c).arrAt_in 0 rfl _).trans ((A_eq m c 0).trans (Function.update_of_ne (StableHlo.devRef_ne_of_ne (by decide)) _ _).symm)
  | ⟨1, _⟩ => ((dats m 0 c).arrAt_in 1 rfl _).trans ((A_eq m c 1).trans (Function.update_of_ne (StableHlo.devRef_ne_of_ne (by decide)) _ _).symm)
  | ⟨2, _⟩ => ((dats m 0 c).arrAt_in 2 rfl _).trans ((A_eq m c 2).trans (Function.update_of_ne (StableHlo.devRef_ne_of_ne (by decide)) _ _).symm)
  | ⟨3, _⟩ => ((dats m 0 c).arrAt_in 3 rfl _).trans ((A_eq m c 3).trans (Function.update_of_ne (StableHlo.devRef_ne_of_ne (by decide)) _ _).symm)
  | ⟨4, _⟩ => ((dats m 0 c).arrAt_in 4 rfl _).trans ((A_eq m c 4).trans (Function.update_of_ne (StableHlo.devRef_ne_of_ne (by decide)) _ _).symm)
  | ⟨5, _⟩ => ((dats m 0 c).arrAt_in 5 rfl _).trans ((A_eq m c 5).trans (Function.update_of_ne (StableHlo.devRef_ne_of_ne (by decide)) _ _).symm)
  | ⟨6, _⟩ => show (dats m 0 c).arrAt 6 cfg0.N
      = Function.update (V0 m c) (Proc.devRef .tc main_v20) ((dats m 0 c).arrAt 6 cfg0.N) (Proc.devRef .tc main_v20) from
    (Function.update_self (β := fun b : DevRef τ sig => b.ty.Contents (Elt F)) (Proc.devRef (τ := τ) .tc main_v20) ((dats m 0 c).arrAt 6 cfg0.N) (V0 m c)).symm

/-- and the host operations after the region write none of them. -/
theorem endN (c : Dev nD) : ∀ w, (dats m 0 c).arrAt w cfg0.N = Vend m c (Pipeline.arrRef spec0 w)
  | ⟨0, _⟩ => (exitN m c 0).trans (tail_main_v9 _).symm
  | ⟨1, _⟩ => (exitN m c 1).trans (tail_main_v9 _).symm
  | ⟨2, _⟩ => (exitN m c 2).trans (tail_main_v17 _).symm
  | ⟨3, _⟩ => (exitN m c 3).trans (tail_main_v18 _).symm
  | ⟨4, _⟩ => (exitN m c 4).trans (tail_main_v13 _).symm
  | ⟨5, _⟩ => (exitN m c 5).trans (tail_main_v19 _).symm
  | ⟨6, _⟩ => (exitN m c 6).trans (tail_main_v20 _).symm

/-- Off the windows' arrays the exit contents are the entry contents. -/
theorem rest_exit (c : Dev nD) :
    (Pipeline.unscopedRest (Ix := Unit) (Name := ℕ) (U := UR sig nD τ) (Lvl := ℕ) spec0 c (Vexit m c) : sProp 𝕄)
      = Pipeline.unscopedRest spec0 c (V m c) := by
  classical
  unfold Pipeline.unscopedRest
  refine bigSep_congr fun b hb => ?_
  have hne : Proc.devRef (τ := τ) .tc b ≠ Proc.devRef .tc main_v20 := fun e =>
    (Finset.mem_sdiff.mp hb).2 (Finset.mem_image.mpr ⟨6, Finset.mem_univ _, (Proc.devRef_injective (τ := τ) _ e).symm⟩)
  rw [show Vexit m c b = V m c b from Function.update_of_ne hne _ _]

/-- The unscoped buffers held at a valuation are the windows' arrays at their shares and the other unscoped buffers. -/
theorem held_split (c : Dev nD) (Wv : Valuation τ sig (Elt F)) :
    (StableHlo.held (c.tc : Thread nD τ) (Pipeline.ucRefs τ sig) Wv : sProp 𝕄)
      = iprop(Pipeline.arrBufs (Ix := Unit) (Name := ℕ) (U := UR sig nD τ) (Lvl := ℕ) spec0 c (fun b => Wv (Proc.devRef .tc b))
          ∗ Pipeline.unscopedRest spec0 c (fun b => Wv (Proc.devRef .tc b))) :=
  (Pipeline.unscopedBufs_held (Ix := Unit) (Name := ℕ) (U := UR sig nD τ) (Lvl := ℕ) c Wv).symm.trans
    (Pipeline.unscopedBufs_split₀ cfgs (0 : Fin 1) winFacts₀0.arr_unscoped c _)

set_option backward.isDefEq.respectTransparency.types false in
/-- The host operations after the region, run from the region's exit: they touch unscoped buffers only, so they run
    within all of them — the windows' arrays put back together from their shares — and leave the arrays as they were. -/
theorem tail_run (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  have h1 : iprop((dats m 0 c).arrays ((dats m 0 c).arrAt · cfg0.N) ∗ Pipeline.unscopedRest spec0 c (V m c))
      ⊢ (StableHlo.held (c.tc : Thread nD τ) (Pipeline.ucRefs τ sig) (Wexit m c) : sProp 𝕄) := by
    rw [held_split, rest_exit]
    iintro ⟨Ha, Hz⟩
    isplitl [Ha]
    · iapply (arrays_iff m c (Vexit m c) _ (exitN m c)).2; iexact Ha
    iexact Hz
  have h2 : (StableHlo.held (c.tc : Thread nD τ) (Pipeline.ucRefs τ sig) (Wend m c) : sProp 𝕄)
      ⊢ iprop((dats m 0 c).arrays ((dats m 0 c).arrAt · cfg0.N) ∗ Pipeline.unscopedRest spec0 c (Vend m c)) := by
    rw [held_split]
    iintro ⟨Ha, Hz⟩
    isplitl [Ha]
    · iapply (arrays_iff m c (Vend m c) _ (endN m c)).1; iexact Ha
    iexact Hz
  iintro ⟨Hk, Hb, Ha, Hz⟩
  ihave Hh := h1 $$ [Ha Hz]
  · isplitl [Ha]; · iexact Ha
    iexact Hz
  rw [show (Pipeline.chain [StableHlo.seq (hostOps1 (F := F))] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iapply (Pipeline.wp_seqs_then (pcfgs (F := F)) defs₀ Variants.none c (Pipeline.ucRefs τ sig) [] [hostOps1]
    (fun ops ho op h => Pipeline.sub_ucRefs op ((List.forall_iff_forall_mem.mp (by
      simp only [List.mem_cons, List.mem_nil_iff, or_false] at ho; subst ho; exact hostOps1_sub)) op h))
    (fun ops ho op h => (List.forall_iff_forall_mem.mp (by
      simp only [List.mem_cons, List.mem_nil_iff, or_false] at ho; subst ho; exact hostOps1_fresh)) op h) (Wexit m c)) $$ [Hb Hh]
  · isplitl [Hb]; · iexact Hb
    iexact Hh
  iintro ⟨-, Hh⟩
  rw [Pipeline.chain_nil, wp_pure]
  imodintro
  iapply Hk
  iapply h2; iexact Hh

/-! ## The run -/

theorem Phi_eq (c : Dev nD) (t : Fin (cfg0.N + 1)) : (dats m 0 c).Φ t
    = Pipeline.scopedRest (Ix := Unit) (Name := ℕ) (U := UR sig nD τ) (Lvl := ℕ) (Val := Elt F) spec0 c := rfl

set_option backward.isDefEq.respectTransparency.types false in
/-- Every weakly fair execution of @main terminates, without a fault, and every unscoped buffer that is no window's
    array ends at the host operations' contents computed from the region's exit. -/
theorem run_main : θ_run (defs (F := F)) (onTc (τ := τ) (main (F := F))) (s₀ m ρ)
    (fun r => ∀ c : Dev nD, ∀ b ∈ Pipeline.restRefs sig spec0, r.2.mem ((c.tc : Thread nD τ).loc b) = Vend m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := fun c => (arrays_iff m c (V m c) _ (fun w => A_eq m c w)).1)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro H; isplitr; · iempintro
      iexact H)
    (hin := fun c => by
      rw [Phi_eq]
      iintro ⟨-, -, HR⟩; iexact HR)
    (hout := fun c => by
      rw [Phi_eq]
      iintro H; isplitr; · iempintro
      iexact H)
    (htail := fun c Q' => tail_run m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => (h c).2.2)

/-! ## What the run leaves in the arguments and in the result -/

theorem Vend_arg0 (c : Dev nD) : Vend m c main_arg0 = m ((c.tc : Thread nD τ).loc main_arg0) :=
  (tail_main_arg0 _).trans ((Function.update_of_ne (StableHlo.devRef_ne_of_ne (by decide)) _ _).trans (pre_main_arg0 _))
theorem Vend_arg1 (c : Dev nD) : Vend m c main_arg1 = m ((c.tc : Thread nD τ).loc main_arg1) :=
  (tail_main_arg1 _).trans ((Function.update_of_ne (StableHlo.devRef_ne_of_ne (by decide)) _ _).trans (pre_main_arg1 _))
theorem Vend_arg2 (c : Dev nD) : Vend m c main_arg2 = m ((c.tc : Thread nD τ).loc main_arg2) :=
  (tail_main_arg2 _).trans ((Function.update_of_ne (StableHlo.devRef_ne_of_ne (by decide)) _ _).trans (pre_main_arg2 _))
theorem Vend_arg3 (c : Dev nD) : Vend m c main_arg3 = m ((c.tc : Thread nD τ).loc main_arg3) :=
  (tail_main_arg3 _).trans ((Function.update_of_ne (StableHlo.devRef_ne_of_ne (by decide)) _ _).trans (pre_main_arg3 _))
theorem Vend_arg4 (c : Dev nD) : Vend m c main_arg4 = m ((c.tc : Thread nD τ).loc main_arg4) :=
  (tail_main_arg4 _).trans ((Function.update_of_ne (StableHlo.devRef_ne_of_ne (by decide)) _ _).trans (pre_main_arg4 _))
theorem Vend_arg5 (c : Dev nD) : Vend m c main_arg5 = m ((c.tc : Thread nD τ).loc main_arg5) :=
  (tail_main_arg5 _).trans ((Function.update_of_ne (StableHlo.devRef_ne_of_ne (by decide)) _ _).trans (pre_main_arg5 _))
theorem Vend_arg6 (c : Dev nD) : Vend m c main_arg6 = m ((c.tc : Thread nD τ).loc main_arg6) :=
  (tail_main_arg6 _).trans ((Function.update_of_ne (StableHlo.devRef_ne_of_ne (by decide)) _ _).trans (pre_main_arg6 _))
theorem Vend_arg7 (c : Dev nD) : Vend m c main_arg7 = m ((c.tc : Thread nD τ).loc main_arg7) :=
  (tail_main_arg7 _).trans ((Function.update_of_ne (StableHlo.devRef_ne_of_ne (by decide)) _ _).trans (pre_main_arg7 _))
theorem Vend_arg8 (c : Dev nD) : Vend m c main_arg8 = m ((c.tc : Thread nD τ).loc main_arg8) :=
  (tail_main_arg8 _).trans ((Function.update_of_ne (StableHlo.devRef_ne_of_ne (by decide)) _ _).trans (pre_main_arg8 _))

/-- The run, read at the result and at the nine arguments: the result buffer ends at the host operations' value from
    the region's exit, every argument as launched. -/
theorem run_all : θ_run (defs (F := F)) (onTc (τ := τ) (main (F := F))) ⟨m, fun _ => 0, ρ⟩ (fun r => ∀ c : Dev nD,
      r.2.mem ((c.tc : Thread nD τ).loc main_v23) = Vend m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c) main_v23 (Pipeline.mem_restRefs_of main_v23 (by decide) (by decide)),
     ((h c) main_arg0 (Pipeline.mem_restRefs_of main_arg0 (by decide) (by decide))).trans (Vend_arg0 m c),
     ((h c) main_arg1 (Pipeline.mem_restRefs_of main_arg1 (by decide) (by decide))).trans (Vend_arg1 m c),
     ((h c) main_arg2 (Pipeline.mem_restRefs_of main_arg2 (by decide) (by decide))).trans (Vend_arg2 m c),
     ((h c) main_arg3 (Pipeline.mem_restRefs_of main_arg3 (by decide) (by decide))).trans (Vend_arg3 m c),
     ((h c) main_arg4 (Pipeline.mem_restRefs_of main_arg4 (by decide) (by decide))).trans (Vend_arg4 m c),
     ((h c) main_arg5 (Pipeline.mem_restRefs_of main_arg5 (by decide) (by decide))).trans (Vend_arg5 m c),
     ((h c) main_arg6 (Pipeline.mem_restRefs_of main_arg6 (by decide) (by decide))).trans (Vend_arg6 m c),
     ((h c) main_arg7 (Pipeline.mem_restRefs_of main_arg7 (by decide) (by decide))).trans (Vend_arg7 m c),
     ((h c) main_arg8 (Pipeline.mem_restRefs_of main_arg8 (by decide) (by decide))).trans (Vend_arg8 m c)⟩) (run_main m ρ)

/-- The frame: @main runs to the end without a fault and the nine argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.Kernel.Shared

end
-- ==== Proof.PairSpec.lean ====
/-
  The pairwise edge score, as plain arithmetic on the extended reals.

  For an ordered pair of nodes with hidden rows `hi`, `hj` (128 entries each) the decoder's
  score is  Σ_k max(pre_k, 0) · w2_k,  where the pre-activation of hidden unit `k` is the
  row of the first decoder layer applied to the 384 features  [hi, hj, |hi − hj|]  plus its bias.

  Two arrangements of that pre-activation are stated here:
  * `refScore`: one sum over all 384 features, then the bias (`feat` is the concatenated feature);
  * `score`: a node-`i` term `a_k` and a node-`j` term `b_k` computed beforehand, added to the
    contribution  Σ_l |hi_l − hj_l| · wc_{l,k}  of the absolute differences.
  The absolute value is written  max d (−d),  the extended reals' own.
-/
import Idealize.ShloMosaic.PureOps.Ideal

noncomputable section

open scoped BigOperators

namespace Cert.PairSpec

/-- The score of a pair from the two precomputed per-node terms `a`, `b` and the difference block `wc`
    of the first layer: Σ_k max((a_k + b_k) + Σ_l |hi_l − hj_l|·wc_{l,k}, 0) · w2_k. -/
def score (hi hj a b : Fin 128 → EReal) (wc : Fin 128 → Fin 128 → EReal) (w2 : Fin 128 → EReal) : EReal :=
  ∑ k : Fin 128, max ((a k + b k) + ∑ l : Fin 128, max (hi l - hj l) (-(hi l - hj l)) * wc l k) 0 * w2 k

/-- Entry `l` of the concatenated pair feature [hi, hj, |hi − hj|]. -/
def feat (hi hj : Fin 128 → EReal) (l : Fin 384) : EReal :=
  if h : l.val < 128 then hi ⟨l.val, h⟩
  else if h' : l.val < 256 then hj ⟨l.val - 128, by omega⟩
  else max (hi ⟨l.val - 256, by omega⟩ - hj ⟨l.val - 256, by omega⟩)
        (-(hi ⟨l.val - 256, by omega⟩ - hj ⟨l.val - 256, by omega⟩))

/-- The score of a pair from the whole first layer `W` (384 × 128) and its bias `b1`:
    Σ_k max((Σ_l feat_l · W_{l,k}) + b1_k, 0) · w2_k. -/
def refScore (hi hj : Fin 128 → EReal) (W : Fin 384 → Fin 128 → EReal) (b1 w2 : Fin 128 → EReal) : EReal :=
  ∑ k : Fin 128, max ((∑ l : Fin 384, feat hi hj l * W l k) + b1 k) 0 * w2 k

end Cert.PairSpec

end
-- ==== Proof.KernelBlock.lean ====
/-
  The value the kernel body stores, read at one entry.

  The body holds two blocks of hidden rows (128 rows of 128 entries each), the two per-node terms of the first
  decoder layer (one block each), the difference block of the first layer's weights (128 × 128) and the second
  layer's row of weights. It spreads the row blocks over a [128,128,128] array indexed (p, q, l), takes the
  absolute differences, flattens the pair (p, q) to the row p·128 + q of a [16384,128] array, multiplies by the
  difference block, cuts the product back to (p, q, k), adds the two per-node terms, clips at zero, weights by the
  second layer's row and sums over k. Read at the entry (p, q) this is the pair score of row p of the first block
  and row q of the second, in the arrangement `Cert.PairSpec.score`.

  Each operation that moves entries (a change of shape, a repetition along an axis, the flattening and its inverse,
  the matrix product, the sum over the last axis) gets one small statement at explicit coordinates; the operations
  that act entry by entry read through by definition.
-/
import proofs.«143030_j27152783245644_2_alg».proof.Proof.PairSpec
import proofs.«143030_j27152783245644_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Idealize.ShloMosaic Idealize.ShloMosaic.ValueIdx Cert.KernelIdeal

variable {α : Type}

/-! ## The layout operations of the block, each read at explicit coordinates -/

/-- A [128,128] array viewed as [128,1,128]: entry (p, u, k) is entry (p, k). -/
theorem cast_rows (x : S128x128.Idx → α) (h : S128x128.ShapeCasts S128x1x128) (p : Fin 128) (u : Fin 1) (k : Fin 128) :
    shapeCast S128x1x128 x h (ix3 p u k) = x (ix2 p k) :=
  shapeCast_apply x h _ _ (by
    have hu : u.val = 0 := by omega
    rw [Shape.rowMajor_val_three, Shape.rowMajor_val_two]
    show p.val * 128 + k.val = (p.val * 1 + u.val) * 128 + k.val
    omega)

/-- A [128,128] array viewed as [1,128,128]: entry (u, q, k) is entry (q, k). -/
theorem cast_cols (x : S128x128.Idx → α) (h : S128x128.ShapeCasts S1x128x128) (u : Fin 1) (q k : Fin 128) :
    shapeCast S1x128x128 x h (ix3 u q k) = x (ix2 q k) :=
  shapeCast_ab_1ab_apply x h u q k

/-- A [128,1,128] array repeated along the middle axis: entry (p, q, k) is entry (p, 0, k). -/
theorem bcast_rows (y : S128x1x128.Idx → α) (h : S128x1x128.Broadcasts S128x128x128) (p q k : Fin 128) :
    broadcastTo S128x128x128 y h (ix3 p q k) = y (ix3 p (0 : Fin 1) k) := by
  refine broadcastTo_apply y h (ix3 p q k) (ix3 p (0 : Fin 1) k) fun ax => ?_
  match ax with
  | ⟨0, _⟩ => rfl
  | ⟨1, _⟩ => rfl
  | ⟨2, _⟩ => rfl

/-- A [1,128,128] array repeated along the leading axis: entry (p, q, k) is entry (0, q, k). -/
theorem bcast_cols (y : S1x128x128.Idx → α) (h : S1x128x128.Broadcasts S128x128x128) (p q k : Fin 128) :
    broadcastTo S128x128x128 y h (ix3 p q k) = y (ix3 (0 : Fin 1) q k) := by
  refine broadcastTo_apply y h (ix3 p q k) (ix3 (0 : Fin 1) q k) fun ax => ?_
  match ax with
  | ⟨0, _⟩ => rfl
  | ⟨1, _⟩ => rfl
  | ⟨2, _⟩ => rfl

/-- A [1,1,128] array repeated along both leading axes: entry (p, q, k) is entry (0, 0, k). -/
theorem bcast_lane (y : S1x1x128.Idx → α) (h : S1x1x128.Broadcasts S128x128x128) (p q k : Fin 128) :
    broadcastTo S128x128x128 y h (ix3 p q k) = y (ix3 (0 : Fin 1) (0 : Fin 1) k) := by
  refine broadcastTo_apply y h (ix3 p q k) (ix3 (0 : Fin 1) (0 : Fin 1) k) fun ax => ?_
  match ax with
  | ⟨0, _⟩ => rfl
  | ⟨1, _⟩ => rfl
  | ⟨2, _⟩ => rfl

/-- A vector of 128 entries viewed as [1,1,128]: entry (u, u', k) is entry k. -/
theorem cast_lane (x : S128.Idx → α) (h : S128.ShapeCasts S1x1x128) (u u' : Fin 1) (k : Fin 128) :
    shapeCast S1x1x128 x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * 128 + k.val
    omega)

/-- Row p·128 + q of the flattened [16384,128] array: where the pair (p, q) of the [128,128,128] array goes. -/
def row (p q : Fin 128) : Fin 16384 := ⟨p.val * 128 + q.val, by have := p.isLt; have := q.isLt; omega⟩

/-- The [128,128,128] array flattened to [16384,128]: entry (p·128 + q, l) is entry (p, q, l). -/
theorem flatten_at (x : S128x128x128.Idx → α) (h : S128x128x128.ShapeCasts S16384x128) (p q l : Fin 128) :
    shapeCast S16384x128 x h (ix2 (row p q) l) = x (ix3 p q l) :=
  shapeCast_apply x h _ _ (by
    rw [Shape.rowMajor_val_three, Shape.rowMajor_val_two]
    rfl)

/-- The [16384,128] array cut back into [128,128,128]: entry (p, q, k) is entry (p·128 + q, k). -/
theorem unflatten_at (y : S16384x128.Idx → α) (h : S16384x128.ShapeCasts S128x128x128) (p q k : Fin 128) :
    shapeCast S128x128x128 y h (ix3 p q k) = y (ix2 (row p q) k) :=
  shapeCast_apply y h _ _ (by
    rw [Shape.rowMajor_val_three, Shape.rowMajor_val_two]
    rfl)

/-! ## The matrix product of the block, read at an entry -/

section Product

/-- The left operand's row coordinate at output entry `i` is the output's row. -/
theorem lhs_row (i : S16384x128.Idx) (c : dot_S16384x128_S128x128_S16384x128_1_0_0_1_n_n.contr.Idx) :
    (dot_S16384x128_S128x128_S16384x128_1_0_0_1_n_n.lhsIdx i c 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
/-- The left operand's column coordinate is the contraction coordinate. -/
theorem lhs_col (i : S16384x128.Idx) (c : dot_S16384x128_S128x128_S16384x128_1_0_0_1_n_n.contr.Idx) :
    (dot_S16384x128_S128x128_S16384x128_1_0_0_1_n_n.lhsIdx i c 1).val = (c ⟨0, by decide⟩).val :=
  dot_S16384x128_S128x128_S16384x128_1_0_0_1_n_n.lhsIdx_val_of_single rfl i c
/-- The right operand's row coordinate is the contraction coordinate. -/
theorem rhs_row (i : S16384x128.Idx) (c : dot_S16384x128_S128x128_S16384x128_1_0_0_1_n_n.contr.Idx) :
    (dot_S16384x128_S128x128_S16384x128_1_0_0_1_n_n.rhsIdx i c 0).val = (c ⟨0, by decide⟩).val :=
  dot_S16384x128_S128x128_S16384x128_1_0_0_1_n_n.rhsIdx_val_of_single rfl i c
/-- The right operand's column coordinate at output entry `i` is the output's column. -/
theorem rhs_col (i : S16384x128.Idx) (c : dot_S16384x128_S128x128_S16384x128_1_0_0_1_n_n.contr.Idx) :
    (dot_S16384x128_S128x128_S16384x128_1_0_0_1_n_n.rhsIdx i c 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The product of a [16384,128] array with a [128,128] array into a zero accumulator: entry (r, k) is
    Σ_l A(r, l) · B(l, k). -/
theorem matmul_at (A : FVec Ideal S16384x128 .bf16) (B : FVec Ideal S128x128 .bf16) (r : Fin 16384) (k : Fin 128) :
    matmul (F := Ideal) dot_S16384x128_S128x128_S16384x128_1_0_0_1_n_n none A B (constant (F := Ideal) S16384x128 .f32 0x00000000#32) (ix2 r k)
      = ∑ l : Fin 128, A (ix2 r l) * B (ix2 l k) := by
  simp only [matmul]
  rw [Ideal.matmul_constant_zero_apply, ← Equiv.sum_comp (contrEquiv1 dot_S16384x128_S128x128_S16384x128_1_0_0_1_n_n 128 rfl rfl).symm]
  refine Finset.sum_congr rfl fun l _ => ?_
  have hl := contrEquiv1_symm_val dot_S16384x128_S128x128_S16384x128_1_0_0_1_n_n 128 rfl rfl l
  have el : dot_S16384x128_S128x128_S16384x128_1_0_0_1_n_n.lhsIdx (ix2 r k) ((contrEquiv1 dot_S16384x128_S128x128_S16384x128_1_0_0_1_n_n 128 rfl rfl).symm l) = ix2 r l := funext fun a => Fin.ext (by
    match a with
    | ⟨0, _⟩ => exact lhs_row _ _
    | ⟨1, _⟩ => exact (lhs_col _ _).trans hl)
  have er : dot_S16384x128_S128x128_S16384x128_1_0_0_1_n_n.rhsIdx (ix2 r k) ((contrEquiv1 dot_S16384x128_S128x128_S16384x128_1_0_0_1_n_n 128 rfl rfl).symm l) = ix2 l k := funext fun a => Fin.ext (by
    match a with
    | ⟨0, _⟩ => exact (rhs_row _ _).trans hl
    | ⟨1, _⟩ => exact rhs_col _ _)
  rw [el, er]

end Product

/-! ## The sum over the last axis -/

/-- The sum over the last axis of a [128,128,128] array, from the zero word: entry (p, q) is Σ_k x(p, q, k). -/
theorem lane_sum (src : FVec Ideal S128x128x128 .f32) (h : S128x128x128.Reduces [2] S128x128) (hφ : FKind.Formats .f32)
    (hacc : (0x00000000#32 : BitVec 32) = FKind.add.neutral .f32 hφ) (p q : Fin 128) :
    multiReduction (F := Ideal) .add [2] S128x128 src 0x00000000#32 h hφ hacc (ix2 p q) = ∑ k : Fin 128, src (ix3 p q k) := by
  refine (Ideal.multiReduction_add_single src _ h hφ hacc (ix2 p q)).trans ?_
  refine Finset.sum_congr rfl fun k _ => congrArg src ?_
  funext a
  match a with
  | ⟨0, _⟩ => rfl
  | ⟨1, _⟩ => rfl
  | ⟨2, _⟩ => rfl

/-! ## The block's stored value at an entry -/

/-- The absolute value at an entry is the extended reals' `max a (−a)`. -/
theorem absf_at {s : Shape} {φ : FTy} (a : FVec Ideal s φ) (i : s.Idx) : absf a i = max (a i) (-(a i)) := rfl

/-- Entry (p, q) of the value the body stores is the pair score of row p of the first node block and row q of the
    second: the lane sum over k of max((a_pk + b_qk) + Σ_l |hi_pl − hj_ql| · wc_lk, 0) · w2_k. -/
theorem pay_at (v0 v2 v16 v18 : Vec Ideal S128x128 .f32) (v11 : Vec Ideal S128x128 .bf16) (v28 : Vec Ideal S1x128 .f32)
    (p q : Fin 128) :
    Cert.KernelIdeal.Gen.k0_pay1 (F := Ideal) v0 v2 v11 v16 v18 v28 (ix2 p q)
      = Cert.PairSpec.score (fun l => v0 (ix2 p l)) (fun l => v2 (ix2 q l)) (fun k => v16 (ix2 p k))
          (fun k => v18 (ix2 q k)) (fun l k => v11 (ix2 l k)) (fun k => v28 (ix2 0 k)) := by
  unfold Cert.KernelIdeal.Gen.k0_pay1
  refine (lane_sum _ _ _ _ p q).trans ?_
  unfold Cert.PairSpec.score
  refine Finset.sum_congr rfl fun k _ => ?_
  simp only [mulf_apply, maximumf_apply, addf_apply, subf_apply, truncf_apply, absf_at, broadcast_apply,
    bcast_rows, bcast_cols, bcast_lane, cast_rows, cast_cols, cast_lane, shapeCast_1a_a_apply, shapeCast_self,
    unflatten_at, matmul_at, flatten_at, Ideal.ofBits_def, Ideal.ofBits_zero_f32]

end Cert.KernelIdeal.BlockValue

end
-- ==== Proof.KernelArray.lean ====
/-
  From the tiles to the whole output array.

  The region runs over a 4 × 4 grid; point (a, b) reads block a of the hidden rows and of the first per-node term,
  block b of the hidden rows and of the second per-node term, the whole difference block and the whole second-layer
  row, and writes back the 128 × 128 tile (a, b) of the 512 × 512 output. What the body leaves in that tile at its
  entry (p, q) is the pair score of rows a·128 + p and b·128 + q (the block value, read at an entry); so every point
  writes back its tile of ONE array, the array of all pair scores, and since the sixteen tiles cover the output, the
  output ends holding that array.

  Every statement is over the arrays as the region finds them (`V m c ·`), whatever they hold.
-/
import proofs.«143030_j27152783245644_2_alg».proof.Proof.SharedBody
import proofs.«143030_j27152783245644_2_alg».proof.Proof.KernelBlock
import proofs.«143030_j27152783245644_2_alg».proof.Proof.PairSpec
import Idealize.ShloMosaic.Lib.Pipeline.Value
import Idealize.ShloMosaic.Lib.ValueIdx

noncomputable section

open scoped BigOperators

namespace Cert.KernelIdeal.ArrayValue

open Cert.KernelIdeal Cert.KernelIdeal.Gen Cert.KernelIdeal.Shared
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The output array as one function of the arrays the region finds -/

/-- The score of the ordered pair (i, j): row i and row j of the hidden array, row i of the first per-node term,
    row j of the second, the difference block and the second layer's row. -/
def pairAt (c : Dev nD) (i j : Fin 512) : EReal :=
  Cert.PairSpec.score (fun l => (V m c main_v9 : S512x128.Idx → EReal) (ix2 i l))
    (fun l => (V m c main_v9 : S512x128.Idx → EReal) (ix2 j l))
    (fun k => (V m c main_v17 : S512x128.Idx → EReal) (ix2 i k))
    (fun k => (V m c main_v18 : S512x128.Idx → EReal) (ix2 j k))
    (fun l k => (V m c main_v13 : S128x128.Idx → EReal) (ix2 l k))
    (fun k => (V m c main_v19 : S1x128.Idx → EReal) (ix2 (0 : Fin 1) k))

/-- The whole 512 × 512 array of pair scores. -/
def G (c : Dev nD) : S512x512.Idx → EReal := fun y => pairAt m c (y 0) (y 1)

theorem hz : (![0, 0] : Fin 2 → Nat) = fun _ => 0 := funext fun a => by fin_cases a <;> rfl

/-- What the body leaves in the output tile, at the tile's entry (p, q): the pair score of row p of the first
    hidden block and row q of the second. -/
theorem tile_at (x0 x1 x2 x3 : Vec Ideal S128x128 .f32) (x4 : Vec Ideal S128x128 .bf16) (x5 : Vec Ideal S1x128 .f32)
    (p q : Fin 128) :
    out6 x0 x1 x2 x3 x4 x5 (ix2 p q)
      = Cert.PairSpec.score (fun l => x0 (ix2 p l)) (fun l => x1 (ix2 q l)) (fun k => x2 (ix2 p k))
          (fun k => x3 (ix2 q k)) (fun l k => x4 (ix2 l k)) (fun k => x5 (ix2 0 k)) := by
  unfold out6
  rw [View.canon_unit_zero hz]
  simp only [View.ld_unit_zero (S := S128x128) hz, View.ld_unit_zero (S := S1x128) hz]
  exact BlockValue.pay_at x0 x1 x2 x3 x4 x5 p q

/-- The printed index maps, decided over the grid: the output tile's block row is the block of both i-side windows,
    its block column the block of both j-side windows; the difference block and the second layer's row are whole. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (1 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 3 ∧ win0_6.index t (1 : Fin 2) ≤ 3 :=
  (by decide +kernel : ∀ t : Fin grid0.N, _)

/-- Every tile of the 4 × 4 arrangement is some point's. -/
theorem idx_onto : ∀ (a b : Fin 4), ∃ t : Fin cfg0.N, win0_6.index t = ![a.val, b.val] :=
  (by decide +kernel : ∀ (a b : Fin 4), ∃ t : Fin grid0.N, win0_6.index t = ![a.val, b.val])

/-! ## Each input block read where the output tile's rectangle says -/

/-- The i-side hidden block at a point whose block row is that of row i: its entry (p, l) is the array's (i, l). -/
theorem read_blk0 (c : Dev nD) (t : Fin cfg0.N) (p l : Fin 128) (i : Fin 512)
    (hi : i.val = win0_0.index t (0 : Fin 2) * 128 + p.val) (h1 : win0_0.index t (1 : Fin 2) = 0) :
    iblk m c 0 t (ix2 p l) = (V m c main_v9 : S512x128.Idx → EReal) (ix2 i l) := by
  show (V m c main_v9 : S512x128.Idx → EReal) (((cfg0.win 0).blk t).view.emb (ix2 p l)) = _
  refine congrArg (V m c main_v9 : S512x128.Idx → EReal) (funext fun a => Fin.ext ?_)
  match a with
  | ⟨0, _⟩ => show win0_0.index t (0 : Fin 2) * 128 + 1 * p.val = i.val; omega
  | ⟨1, _⟩ => show win0_0.index t (1 : Fin 2) * 128 + 1 * l.val = l.val; omega

/-- The j-side hidden block: its entry (q, l) is the array's (j, l). -/
theorem read_blk1 (c : Dev nD) (t : Fin cfg0.N) (q l : Fin 128) (j : Fin 512)
    (hj : j.val = win0_1.index t (0 : Fin 2) * 128 + q.val) (h1 : win0_1.index t (1 : Fin 2) = 0) :
    iblk m c 1 t (ix2 q l) = (V m c main_v9 : S512x128.Idx → EReal) (ix2 j l) := by
  show (V m c main_v9 : S512x128.Idx → EReal) (((cfg0.win 1).blk t).view.emb (ix2 q l)) = _
  refine congrArg (V m c main_v9 : S512x128.Idx → EReal) (funext fun a => Fin.ext ?_)
  match a with
  | ⟨0, _⟩ => show win0_1.index t (0 : Fin 2) * 128 + 1 * q.val = j.val; omega
  | ⟨1, _⟩ => show win0_1.index t (1 : Fin 2) * 128 + 1 * l.val = l.val; omega

/-- The block of the first per-node term: its entry (p, k) is the array's (i, k). -/
theorem read_blk2 (c : Dev nD) (t : Fin cfg0.N) (p k : Fin 128) (i : Fin 512)
    (hi : i.val = win0_2.index t (0 : Fin 2) * 128 + p.val) (h1 : win0_2.index t (1 : Fin 2) = 0) :
    iblk m c 2 t (ix2 p k) = (V m c main_v17 : S512x128.Idx → EReal) (ix2 i k) := by
  show (V m c main_v17 : S512x128.Idx → EReal) (((cfg0.win 2).blk t).view.emb (ix2 p k)) = _
  refine congrArg (V m c main_v17 : S512x128.Idx → EReal) (funext fun a => Fin.ext ?_)
  match a with
  | ⟨0, _⟩ => show win0_2.index t (0 : Fin 2) * 128 + 1 * p.val = i.val; omega
  | ⟨1, _⟩ => show win0_2.index t (1 : Fin 2) * 128 + 1 * k.val = k.val; omega

/-- The block of the second per-node term: its entry (q, k) is the array's (j, k). -/
theorem read_blk3 (c : Dev nD) (t : Fin cfg0.N) (q k : Fin 128) (j : Fin 512)
    (hj : j.val = win0_3.index t (0 : Fin 2) * 128 + q.val) (h1 : win0_3.index t (1 : Fin 2) = 0) :
    iblk m c 3 t (ix2 q k) = (V m c main_v18 : S512x128.Idx → EReal) (ix2 j k) := by
  show (V m c main_v18 : S512x128.Idx → EReal) (((cfg0.win 3).blk t).view.emb (ix2 q k)) = _
  refine congrArg (V m c main_v18 : S512x128.Idx → EReal) (funext fun a => Fin.ext ?_)
  match a with
  | ⟨0, _⟩ => show win0_3.index t (0 : Fin 2) * 128 + 1 * q.val = j.val; omega
  | ⟨1, _⟩ => show win0_3.index t (1 : Fin 2) * 128 + 1 * k.val = k.val; omega

/-- The difference block is read whole. -/
theorem read_blk4 (c : Dev nD) (t : Fin cfg0.N) (l k : Fin 128)
    (h0 : win0_4.index t (0 : Fin 2) = 0) (h1 : win0_4.index t (1 : Fin 2) = 0) :
    iblk m c 4 t (ix2 l k) = (V m c main_v13 : S128x128.Idx → EReal) (ix2 l k) := by
  show (V m c main_v13 : S128x128.Idx → EReal) (((cfg0.win 4).blk t).view.emb (ix2 l k)) = _
  refine congrArg (V m c main_v13 : S128x128.Idx → EReal) (funext fun a => Fin.ext ?_)
  match a with
  | ⟨0, _⟩ => show win0_4.index t (0 : Fin 2) * 128 + 1 * l.val = l.val; omega
  | ⟨1, _⟩ => show win0_4.index t (1 : Fin 2) * 128 + 1 * k.val = k.val; omega

/-- The second layer's row is read whole. -/
theorem read_blk5 (c : Dev nD) (t : Fin cfg0.N) (u : Fin 1) (k : Fin 128)
    (h0 : win0_5.index t (0 : Fin 2) = 0) (h1 : win0_5.index t (1 : Fin 2) = 0) :
    iblk m c 5 t (ix2 u k) = (V m c main_v19 : S1x128.Idx → EReal) (ix2 u k) := by
  show (V m c main_v19 : S1x128.Idx → EReal) (((cfg0.win 5).blk t).view.emb (ix2 u k)) = _
  refine congrArg (V m c main_v19 : S1x128.Idx → EReal) (funext fun a => Fin.ext ?_)
  match a with
  | ⟨0, _⟩ => show win0_5.index t (0 : Fin 2) * 1 + 1 * u.val = u.val; omega
  | ⟨1, _⟩ => show win0_5.index t (1 : Fin 2) * 128 + 1 * k.val = k.val; omega

/-- What a point writes back of a tile's contents, at the tile's entry (p, q), is the contents there: the output
    window's blocks lie inside the array. -/
theorem cut_at (t : Fin cfg0.N) (X : S128x128.Idx → EReal) (p q : Fin 128) :
    (cfg0.win 6).cut (grid0.coords t) X (ix2 p q) = X (ix2 p q) :=
  congrArg X (funext fun a => match a with | ⟨0, _⟩ => rfl | ⟨1, _⟩ => rfl)

/-! ## What each point writes back -/

/-- Point t writes back tile t of the array of pair scores. -/
theorem flushed_eq (c : Dev nD) (t : Fin cfg0.N) :
    (dats (F := Ideal) m 0 c).flushed 6 t = ((cfg0.win 6).blk t).view.read (Elt Ideal) (G m c) := by
  show (cfg0.win 6).cut (grid0.coords t) ((dats m 0 c).after 6 t) = _
  rw [after6]
  obtain ⟨e00, e01, e10, e11, e20, e21, e30, e31, e40, e41, e50, e51, -, -⟩ := idx_facts t
  funext y
  obtain ⟨p, q, rfl⟩ : ∃ (p q : Fin 128), y = ix2 p q := ⟨y 0, y 1, eq_ix2 (n0 := 128) (n1 := 128) y⟩
  refine (cut_at t _ p q).trans ?_
  refine (tile_at _ _ _ _ _ _ p q).trans ?_
  show _ = pairAt m c (((cfg0.win 6).blk t).view.emb (ix2 p q) 0) (((cfg0.win 6).blk t).view.emb (ix2 p q) 1)
  generalize hi : (((cfg0.win 6).blk t).view.emb (ix2 p q) 0 : Fin 512) = i
  generalize hj : (((cfg0.win 6).blk t).view.emb (ix2 p q) 1 : Fin 512) = j
  have hi' : i.val = win0_6.index t (0 : Fin 2) * 128 + p.val := by
    rw [← hi]; show win0_6.index t (0 : Fin 2) * 128 + 1 * p.val = _; omega
  have hj' : j.val = win0_6.index t (1 : Fin 2) * 128 + q.val := by
    rw [← hj]; show win0_6.index t (1 : Fin 2) * 128 + 1 * q.val = _; omega
  unfold pairAt
  have r0 : ∀ l, iblk m c 0 t (ix2 p l) = (V m c main_v9 : S512x128.Idx → EReal) (ix2 i l) :=
    fun l => read_blk0 m c t p l i (by omega) e01
  have r1 : ∀ l, iblk m c 1 t (ix2 q l) = (V m c main_v9 : S512x128.Idx → EReal) (ix2 j l) :=
    fun l => read_blk1 m c t q l j (by omega) e11
  have r2 : ∀ k, iblk m c 2 t (ix2 p k) = (V m c main_v17 : S512x128.Idx → EReal) (ix2 i k) :=
    fun k => read_blk2 m c t p k i (by omega) e21
  have r3 : ∀ k, iblk m c 3 t (ix2 q k) = (V m c main_v18 : S512x128.Idx → EReal) (ix2 j k) :=
    fun k => read_blk3 m c t q k j (by omega) e31
  have r4 : ∀ l k, iblk m c 4 t (ix2 l k) = (V m c main_v13 : S128x128.Idx → EReal) (ix2 l k) :=
    fun l k => read_blk4 m c t l k e40 e41
  have r5 : ∀ k, iblk m c 5 t (ix2 (0 : Fin 1) k) = (V m c main_v19 : S1x128.Idx → EReal) (ix2 (0 : Fin 1) k) :=
    fun k => read_blk5 m c t 0 k e50 e51
  simp only [r0, r1, r2, r3, r4, r5]

/-! ## The tiles cover the array -/

/-- An index of the array is in point t's tile iff each coordinate is in the tile's range on its axis. -/
theorem mem_blk (t : Fin cfg0.N) (y : S512x512.Idx) :
    y ∈ ((cfg0.win 6).blk t).view.set ↔ ∀ a : Fin 2, win0_6.index t a * S128x128.size a ≤ (y a).val
      ∧ (y a).val < win0_6.index t a * S128x128.size a + S128x128.size a := by
  show y ∈ ((View.whole main_v20).slice (win0_6.rect t)).set ↔ _
  rw [View.set_slice_whole, Rect.mem_set_unit]
  exact Iff.rfl

/-- Every ordered pair (i, j) lies in the tile of the point whose block row is i / 128 and block column j / 128,
    and every point writes its tile back. -/
theorem cover (y : S512x512.Idx) :
    ∃ t : Fin cfg0.N, (cfg0.win 6).flush t = true ∧ y ∈ ((cfg0.win 6).blk t).view.set := by
  have hy0 : (y 0).val < 512 := (y 0).isLt
  have hy1 : (y 1).val < 512 := (y 1).isLt
  obtain ⟨t, ht⟩ := idx_onto ⟨(y 0).val / 128, by omega⟩ ⟨(y 1).val / 128, by omega⟩
  have q0 : win0_6.index t (0 : Fin 2) = (y 0).val / 128 := congrFun ht 0
  have q1 : win0_6.index t (1 : Fin 2) = (y 1).val / 128 := congrFun ht 1
  refine ⟨t, flush0_6 t, ?_⟩
  rw [mem_blk]
  intro a
  match a with
  | ⟨0, _⟩ =>
    show win0_6.index t (0 : Fin 2) * 128 ≤ (y 0).val ∧ (y 0).val < win0_6.index t (0 : Fin 2) * 128 + 128
    omega
  | ⟨1, _⟩ =>
    show win0_6.index t (1 : Fin 2) * 128 ≤ (y 1).val ∧ (y 1).val < win0_6.index t (1 : Fin 2) * 128 + 128
    omega

/-! ## The array after the region -/

/-- After the last point the output array holds the array of pair scores. -/
theorem final (c : Dev nD) : (dats (F := Ideal) m 0 c).arrAt 6 cfg0.N = G m c :=
  (dats m 0 c).arrAt_eq_of_cover 6 (G m c) (fun t _ => flushed_eq m c t) cover

/-- Entry (i, j) of the output array after the region is the pair score of rows i and j. -/
theorem out_at (c : Dev nD) (i j : Fin 512) :
    (dats (F := Ideal) m 0 c).arrAt 6 cfg0.N (ix2 i j)
      = Cert.PairSpec.score (fun l => (V m c main_v9 : S512x128.Idx → EReal) (ix2 i l))
          (fun l => (V m c main_v9 : S512x128.Idx → EReal) (ix2 j l))
          (fun k => (V m c main_v17 : S512x128.Idx → EReal) (ix2 i k))
          (fun k => (V m c main_v18 : S512x128.Idx → EReal) (ix2 j k))
          (fun l k => (V m c main_v13 : S128x128.Idx → EReal) (ix2 l k))
          (fun k => (V m c main_v19 : S1x128.Idx → EReal) (ix2 (0 : Fin 1) k)) := by
  rw [final]
  rfl

end Cert.KernelIdeal.ArrayValue

end
-- ==== Proof.KernelHost.lean ====
/-
  The kernel program's host operations as pure terms.

  Before the region the host computes the hidden rows (the same ten operations as the reference's), cuts the first
  decoder layer into its three row blocks, applies the first two to the hidden rows (the first with the bias), keeps the
  third, and turns the second layer's column into a row.  After the region it adds the last bias.  Each statement reads
  one of those arrays at an index, for arbitrary contents of the argument buffers.
-/
import proofs.«143030_j27152783245644_2_alg».proof.Proof.PairSpec
import proofs.«143030_j27152783245644_2_alg».proof.Proof.Gen.KernelIdeal.Launch
import proofs.«143030_j27152783245644_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostValue

open Cert.KernelIdeal Cert.KernelIdeal.Gen Idealize.ShloMosaic Idealize.ShloMosaic.ValueIdx
  Idealize.ShloMosaic.TcCoe Idealize.SL.Sem Idealize.ShloMosaic.StableHlo

/-- The buffers' contents after the host operations that precede the region. -/
abbrev pre (W : Valuation τ sig (Elt Ideal)) : Valuation τ sig (Elt Ideal) :=
  StableHlo.after (List.flatten [hostOps0 (F := Ideal), hostOps0_1, hostOps0_2, hostOps0_3, hostOps0_4]) W

/-! ## The buffers read at their literal types -/

/-- The argument arrays. -/
abbrev arg0 (W : Valuation τ sig (Elt Ideal)) : S512x595.Idx → EReal := W (Proc.devRef .tc main_arg0)
abbrev arg1 (W : Valuation τ sig (Elt Ideal)) : S595x128.Idx → EReal := W (Proc.devRef .tc main_arg1)
abbrev arg2 (W : Valuation τ sig (Elt Ideal)) : S128.Idx → EReal := W (Proc.devRef .tc main_arg2)
abbrev arg3 (W : Valuation τ sig (Elt Ideal)) : S128x128.Idx → EReal := W (Proc.devRef .tc main_arg3)
abbrev arg4 (W : Valuation τ sig (Elt Ideal)) : S128.Idx → EReal := W (Proc.devRef .tc main_arg4)
abbrev arg5 (W : Valuation τ sig (Elt Ideal)) : S384x128.Idx → EReal := W (Proc.devRef .tc main_arg5)
abbrev arg6 (W : Valuation τ sig (Elt Ideal)) : S128.Idx → EReal := W (Proc.devRef .tc main_arg6)
abbrev arg7 (W : Valuation τ sig (Elt Ideal)) : S128x1.Idx → EReal := W (Proc.devRef .tc main_arg7)
abbrev arg8 (W : Valuation τ sig (Elt Ideal)) : S1.Idx → EReal := W (Proc.devRef .tc main_arg8)
/-- The hidden rows. -/
abbrev hid (W : Valuation τ sig (Elt Ideal)) : S512x128.Idx → EReal := pre W (Proc.devRef .tc main_v9)
/-- The node-i term, the node-j term, the difference block, and the second layer as a row. -/
abbrev ta (W : Valuation τ sig (Elt Ideal)) : S512x128.Idx → EReal := pre W (Proc.devRef .tc main_v17)
abbrev tb (W : Valuation τ sig (Elt Ideal)) : S512x128.Idx → EReal := pre W (Proc.devRef .tc main_v18)
abbrev wc (W : Valuation τ sig (Elt Ideal)) : S128x128.Idx → EReal := pre W (Proc.devRef .tc main_v13)
abbrev w2row (W : Valuation τ sig (Elt Ideal)) : S1x128.Idx → EReal := pre W (Proc.devRef .tc main_v19)
/-- The region's result and the program's result. -/
abbrev acc (W : Valuation τ sig (Elt Ideal)) : S512x512.Idx → EReal := W (Proc.devRef .tc main_v20)
abbrev out (W : Valuation τ sig (Elt Ideal)) : S512x512.Idx → EReal :=
  StableHlo.after (List.flatten [hostOps1 (F := Ideal)]) W (Proc.devRef .tc main_v23)

/-! ## The host operations on arbitrary arrays, read at an index -/

/-- The third row block of the first layer, its change of format the identity. -/
theorem wc_pure (x5 : FVec Ideal S384x128 .f32) (l k : Fin 128) :
    (truncf .bf16 (extractStridedSlice S128x128 ![256, 0] x5 slices_S384x128_S128x128_256_0) bitsLt_bf16_f32
        : FVec Ideal S128x128 .bf16) (ix2 l k)
      = x5 (ix2 (⟨256 + l.val, by omega⟩ : Fin 384) k) := by
  rw [truncf_apply]
  exact slice2_axis0_apply 256 x5 slices_S384x128_S128x128_256_0 l k ⟨256 + l.val, by omega⟩ rfl

/-- A column reshaped to a row. -/
theorem w2_pure (x7 : FVec Ideal S128x1 .f32) (k : Fin 128) :
    shapeCast S1x128 x7 shapeCasts_S128x1_S1x128 (ix2 (0 : Fin 1) k) = x7 (ix2 k (0 : Fin 1)) :=
  shapeCast_apply x7 shapeCasts_S128x1_S1x128 (ix2 (0 : Fin 1) k) (ix2 k (0 : Fin 1))
    (by rw [Shape.rowMajor_val_two, Shape.rowMajor_val_two]
        show k.val * 1 + 0 = 0 * 128 + k.val
        omega)

/-- Where the host's product of a 512 × 128 array with a 128 × 128 array reads its operands: the row of the result
    on the left, the column on the right, the contraction position on the shared axis. -/
theorem dot_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem dot_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem dot_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem dot_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The host's product of a 512 × 128 array with a 128 × 128 array, at an index: the sum over the shared axis. -/
theorem dot_apply (A : FVec Ideal S512x128 .f32) (B : FVec Ideal S128x128 .f32) (i : Fin 512) (k : Fin 128) :
    Host.dotGeneral (F := Ideal) dot_S512x128_S128x128_S512x128_1_0_0_1_n_n none A B (ix2 i k)
      = ∑ l : Fin 128, A (ix2 i l) * B (ix2 l k) := by
  simp only [Host.dotGeneral]
  rw [Ideal.dotGeneral_apply,
    ← Equiv.sum_comp (ValueIdx.contrEquiv1 dot_S512x128_S128x128_S512x128_1_0_0_1_n_n 128 rfl rfl).symm]
  refine Finset.sum_congr rfl fun l _ => ?_
  have hk := ValueIdx.contrEquiv1_symm_val dot_S512x128_S128x128_S512x128_1_0_0_1_n_n 128 rfl rfl l
  have el : dot_S512x128_S128x128_S512x128_1_0_0_1_n_n.lhsIdx (ix2 i k)
      ((ValueIdx.contrEquiv1 dot_S512x128_S128x128_S512x128_1_0_0_1_n_n 128 rfl rfl).symm l) = ix2 i l :=
    funext fun a => Fin.ext (by
      match a with
      | ⟨0, _⟩ => exact dot_lhs_0 _ _
      | ⟨1, _⟩ => exact (dot_lhs_1 _ _).trans hk)
  have er : dot_S512x128_S128x128_S512x128_1_0_0_1_n_n.rhsIdx (ix2 i k)
      ((ValueIdx.contrEquiv1 dot_S512x128_S128x128_S512x128_1_0_0_1_n_n 128 rfl rfl).symm l) = ix2 l k :=
    funext fun a => Fin.ext (by
      match a with
      | ⟨0, _⟩ => exact (dot_rhs_0 _ _).trans hk
      | ⟨1, _⟩ => exact dot_rhs_1 _ _)
  rw [el, er]

/-- A vector broadcast to a row and then down the rows, at an index: its entry at the column. -/
theorem bias_apply (b : FVec Ideal S128 .f32) (i : Fin 512) (k : Fin 128) :
    broadcastInDim S512x128 ![0, 1] bcast_S1x128_S512x128_0_1 (broadcastInDim S1x128 ![1] bcast_S128_S1x128_1 b) (ix2 i k)
      = b (ix1 k) := by
  rw [broadcastInDim_apply _ bcast_S1x128_S512x128_0_1 _ (ix2 i k) (ix2 (0 : Fin 1) k) (fun a => match a with
      | ⟨0, _⟩ => by show 0 = if (1 : Nat) = 1 then 0 else i.val; rw [if_pos rfl]
      | ⟨1, _⟩ => by show k.val = if (128 : Nat) = 1 then 0 else k.val; rw [if_neg (by decide)]),
    broadcastInDim_apply _ bcast_S128_S1x128_1 b (ix2 (0 : Fin 1) k) (ix1 k) (fun a => match a with
      | ⟨0, _⟩ => by show k.val = if (128 : Nat) = 1 then 0 else k.val; rw [if_neg (by decide)])]

/-- The node-i term: the hidden rows times the first row block, plus the first bias. -/
theorem ta_pure (H : FVec Ideal S512x128 .f32) (x5 : FVec Ideal S384x128 .f32) (x6 : FVec Ideal S128 .f32)
    (i : Fin 512) (k : Fin 128) :
    addf (Host.dotGeneral (F := Ideal) dot_S512x128_S128x128_S512x128_1_0_0_1_n_n none H
            (extractStridedSlice S128x128 ![0, 0] x5 slices_S384x128_S128x128_0_0))
         (broadcastInDim S512x128 ![0, 1] bcast_S1x128_S512x128_0_1 (broadcastInDim S1x128 ![1] bcast_S128_S1x128_1 x6))
         (ix2 i k)
      = (∑ l : Fin 128, H (ix2 i l) * x5 (ix2 (⟨l.val, by omega⟩ : Fin 384) k)) + x6 (ix1 k) := by
  rw [addf_apply, dot_apply, bias_apply]
  congr 1
  refine Finset.sum_congr rfl fun l _ => ?_
  rw [slice2_axis0_apply 0 x5 slices_S384x128_S128x128_0_0 l k ⟨l.val, by omega⟩ (by show l.val = 0 + l.val; omega)]

/-- The node-j term: the hidden rows times the second row block. -/
theorem tb_pure (H : FVec Ideal S512x128 .f32) (x5 : FVec Ideal S384x128 .f32) (j : Fin 512) (k : Fin 128) :
    Host.dotGeneral (F := Ideal) dot_S512x128_S128x128_S512x128_1_0_0_1_n_n none H
        (extractStridedSlice S128x128 ![128, 0] x5 slices_S384x128_S128x128_128_0) (ix2 j k)
      = ∑ l : Fin 128, H (ix2 j l) * x5 (ix2 (⟨128 + l.val, by omega⟩ : Fin 384) k) := by
  rw [dot_apply]
  refine Finset.sum_congr rfl fun l _ => ?_
  rw [slice2_axis0_apply 128 x5 slices_S384x128_S128x128_128_0 l k ⟨128 + l.val, by omega⟩ rfl]

/-! ## The host tail -/

/-- Adding a one-element array, reshaped to a scalar and broadcast, adds its element to every entry. -/
theorem tail_pure (a : FVec Ideal S512x512 .f32) (b : FVec Ideal S1 .f32) (i j : Fin 512) :
    addf a (broadcastInDim S512x512 ![] bcast_S_S512x512 (fun i => shapeCast S_ b shapeCasts_S1_S_ i)) (ix2 i j)
      = a (ix2 i j) + b (ix1 (0 : Fin 1)) := by
  rw [addf_apply, broadcastInDim_apply _ bcast_S_S512x512 _ (ix2 i j) ix0 (fun a => a.elim0)]
  exact congrArg _ (shapeCast_apply _ shapeCasts_S1_S_ ix0 (ix1 (0 : Fin 1)) rfl)

/-- After the region the host adds the last bias to every entry. -/
theorem tail_at (W' : Valuation τ sig (Elt Ideal)) (i j : Fin 512) :
    out W' (ix2 i j) = acc W' (ix2 i j) + arg8 W' (ix1 (0 : Fin 1)) := by
  unfold out acc arg8
  simp only [hostOps1, List.flatten_cons, List.flatten_nil, List.append_nil]
  after_results
  exact tail_pure _ _ i j

/-! ## The stretch before the region, in two parts: the hidden rows' computation, then the decoder's preparation -/

/-- The contents after the hidden rows' computation. -/
abbrev mid (W : Valuation τ sig (Elt Ideal)) : Valuation τ sig (Elt Ideal) :=
  StableHlo.after (List.flatten [hostOps0 (F := Ideal), hostOps0_1, hostOps0_2, hostOps0_3]) W

theorem pre_eq (W : Valuation τ sig (Elt Ideal)) : pre W = StableHlo.after (hostOps0_4 (F := Ideal)) (mid W) := by
  unfold pre mid
  simp only [List.flatten_cons, List.flatten_nil, List.append_nil, StableHlo.after_append]

/-- The hidden rows' computation writes none of the decoder's arguments. -/
theorem mid_arg5 (W : Valuation τ sig (Elt Ideal)) :
    mid W (Proc.devRef .tc main_arg5) = W (Proc.devRef .tc main_arg5) := by
  unfold mid
  simp only [hostOps0, hostOps0_1, hostOps0_2, hostOps0_3, List.flatten_cons, List.flatten_nil, List.append_nil,
    List.cons_append, List.nil_append]
  after_results
theorem mid_arg6 (W : Valuation τ sig (Elt Ideal)) :
    mid W (Proc.devRef .tc main_arg6) = W (Proc.devRef .tc main_arg6) := by
  unfold mid
  simp only [hostOps0, hostOps0_1, hostOps0_2, hostOps0_3, List.flatten_cons, List.flatten_nil, List.append_nil,
    List.cons_append, List.nil_append]
  after_results
theorem mid_arg7 (W : Valuation τ sig (Elt Ideal)) :
    mid W (Proc.devRef .tc main_arg7) = W (Proc.devRef .tc main_arg7) := by
  unfold mid
  simp only [hostOps0, hostOps0_1, hostOps0_2, hostOps0_3, List.flatten_cons, List.flatten_nil, List.append_nil,
    List.cons_append, List.nil_append]
  after_results

/-- The decoder's preparation does not write the hidden rows. -/
theorem hid_eq_mid (W : Valuation τ sig (Elt Ideal)) : hid W = mid W (Proc.devRef .tc main_v9) := by
  unfold hid
  rw [pre_eq]
  simp only [hostOps0_4]
  after_results

/-- The difference block handed to the region is the third row block of the first layer. -/
theorem wc_at (W : Valuation τ sig (Elt Ideal)) (l k : Fin 128) :
    wc W (ix2 l k) = arg5 W (ix2 (⟨256 + l.val, by omega⟩ : Fin 384) k) := by
  unfold wc arg5
  rw [pre_eq]
  simp only [hostOps0_4]
  after_results
  rw [mid_arg5]
  exact wc_pure _ l k

/-- The second layer handed to the region as a row. -/
theorem w2_at (W : Valuation τ sig (Elt Ideal)) (k : Fin 128) :
    w2row W (ix2 (0 : Fin 1) k) = arg7 W (ix2 k (0 : Fin 1)) := by
  unfold w2row arg7
  rw [pre_eq]
  simp only [hostOps0_4]
  after_results
  rw [mid_arg7]
  exact w2_pure _ k

/-- The node-i term handed to the region. -/
theorem ta_at (W : Valuation τ sig (Elt Ideal)) (i : Fin 512) (k : Fin 128) :
    ta W (ix2 i k)
      = (∑ l : Fin 128, hid W (ix2 i l) * arg5 W (ix2 (⟨l.val, by omega⟩ : Fin 384) k)) + arg6 W (ix1 k) := by
  rw [hid_eq_mid]
  unfold ta arg5 arg6
  rw [pre_eq]
  simp only [hostOps0_4]
  after_results
  rw [mid_arg5, mid_arg6]
  exact ta_pure _ _ _ i k

/-- The node-j term handed to the region. -/
theorem tb_at (W : Valuation τ sig (Elt Ideal)) (j : Fin 512) (k : Fin 128) :
    tb W (ix2 j k) = ∑ l : Fin 128, hid W (ix2 j l) * arg5 W (ix2 (⟨128 + l.val, by omega⟩ : Fin 384) k) := by
  rw [hid_eq_mid]
  unfold tb arg5
  rw [pre_eq]
  simp only [hostOps0_4]
  after_results
  rw [mid_arg5]
  exact tb_pure _ _ j k

/-- The hidden rows are the reference's: the first ten host operations are the reference's own. -/
theorem hidden_eq (W : Valuation τ sig (Elt Ideal)) :
    hid W = Cert.ReferenceIdeal.Read.val_main_v9 (F := Ideal) (arg0 W) (arg1 W) (arg2 W) (arg3 W) (arg4 W) := by
  rw [hid_eq_mid]
  unfold mid arg0 arg1 arg2 arg3 arg4
  simp only [hostOps0, hostOps0_1, hostOps0_2, hostOps0_3, List.flatten_cons, List.flatten_nil, List.append_nil,
    List.cons_append, List.nil_append]
  after_results
  rfl

end Cert.KernelIdeal.HostValue

end
-- ==== Proof.RefValue.lean ====
/-
  The reference's last stage read at an index.

  Entry (i, j) of the reference's result is the pair score of the hidden rows i and j, in the one-sum
  arrangement, plus the last bias.  The hidden rows are kept as one opaque array throughout.
-/
import proofs.«143030_j27152783245644_2_alg».proof.Proof.PairSpec
import proofs.«143030_j27152783245644_2_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

variable (x0 : (⟨S512x595, .f32⟩ : BufTy).Contents (Elt Ideal))
  (x1 : (⟨S595x128, .f32⟩ : BufTy).Contents (Elt Ideal))
  (x2 : (⟨S128, .f32⟩ : BufTy).Contents (Elt Ideal))
  (x3 : (⟨S128x128, .f32⟩ : BufTy).Contents (Elt Ideal))
  (x4 : (⟨S128, .f32⟩ : BufTy).Contents (Elt Ideal))
  (x5 : (⟨S384x128, .f32⟩ : BufTy).Contents (Elt Ideal))
  (x6 : (⟨S128, .f32⟩ : BufTy).Contents (Elt Ideal))
  (x7 : (⟨S128x1, .f32⟩ : BufTy).Contents (Elt Ideal))
  (x8 : (⟨S1, .f32⟩ : BufTy).Contents (Elt Ideal))

/-- The hidden rows broadcast along the second axis: entry (i, j, l) is row i at l. -/
theorem v11_at (i j : Fin 512) (l : Fin 128) :
    val_main_v11 (F := Ideal) x0 x1 x2 x3 x4 (ix3 i j l)
      = val_main_v9 (F := Ideal) x0 x1 x2 x3 x4 (ix2 i l) := by
  rw [val_main_v11_apply, val_main_v10_apply]
  exact congrArg _ (funext fun a => match a with | ⟨0, _⟩ => rfl | ⟨1, _⟩ => rfl)

/-- The hidden rows broadcast along the first axis: entry (i, j, l) is row j at l. -/
theorem v13_at (i j : Fin 512) (l : Fin 128) :
    val_main_v13 (F := Ideal) x0 x1 x2 x3 x4 (ix3 i j l)
      = val_main_v9 (F := Ideal) x0 x1 x2 x3 x4 (ix2 j l) := by
  rw [val_main_v13_apply, val_main_v12_apply]
  exact congrArg _ (funext fun a => match a with | ⟨0, _⟩ => rfl | ⟨1, _⟩ => rfl)

/-- The absolute difference of the two broadcasts. -/
theorem v15_at (i j : Fin 512) (l : Fin 128) :
    val_main_v15 (F := Ideal) x0 x1 x2 x3 x4 (ix3 i j l)
      = max (val_main_v9 (F := Ideal) x0 x1 x2 x3 x4 (ix2 i l) - val_main_v9 (F := Ideal) x0 x1 x2 x3 x4 (ix2 j l))
          (-(val_main_v9 (F := Ideal) x0 x1 x2 x3 x4 (ix2 i l) - val_main_v9 (F := Ideal) x0 x1 x2 x3 x4 (ix2 j l))) := by
  rw [val_main_v15_apply, val_main_v14_apply, v11_at, v13_at]
  rfl

/-- The concatenation along the last axis at (i, j, l): the pair feature of rows i and j at l. -/
theorem v16_at (i j : Fin 512) (l : Fin 384) :
    val_main_v16 (F := Ideal) x0 x1 x2 x3 x4 (ix3 i j l)
      = Cert.PairSpec.feat (fun l => val_main_v9 (F := Ideal) x0 x1 x2 x3 x4 (ix2 i l))
          (fun l => val_main_v9 (F := Ideal) x0 x1 x2 x3 x4 (ix2 j l)) l := by
  unfold Cert.PairSpec.feat val_main_v16
  by_cases h : l.val < 128
  · rw [dif_pos h]
    rw [concatenate_apply_piece (2 : Fin 3) _ _ (ix3 i j l) 0 (by simp) S512x512x128
      (val_main_v11 (F := Ideal) x0 x1 x2 x3 x4) rfl rfl 0 rfl (ix3 i j ⟨l.val, h⟩)
      (fun b hb => match b, hb with
        | ⟨0, _⟩, _ => rfl
        | ⟨1, _⟩, _ => rfl
        | ⟨2, _⟩, hb => absurd rfl hb)
      (by show 0 + l.val = l.val; omega)]
    exact v11_at x0 x1 x2 x3 x4 i j ⟨l.val, h⟩
  · rw [dif_neg h]
    by_cases h' : l.val < 256
    · rw [dif_pos h']
      rw [concatenate_apply_piece (2 : Fin 3) _ _ (ix3 i j l) 1 (by simp) S512x512x128
        (val_main_v13 (F := Ideal) x0 x1 x2 x3 x4) rfl rfl 128 rfl (ix3 i j ⟨l.val - 128, by omega⟩)
        (fun b hb => match b, hb with
          | ⟨0, _⟩, _ => rfl
          | ⟨1, _⟩, _ => rfl
          | ⟨2, _⟩, hb => absurd rfl hb)
        (by show 128 + (l.val - 128) = l.val; omega)]
      exact v13_at x0 x1 x2 x3 x4 i j ⟨l.val - 128, by omega⟩
    · rw [dif_neg h']
      have hl : l.val < 384 := l.isLt
      rw [concatenate_apply_piece (2 : Fin 3) _ _ (ix3 i j l) 2 (by simp) S512x512x128
        (val_main_v15 (F := Ideal) x0 x1 x2 x3 x4) rfl rfl 256 rfl (ix3 i j ⟨l.val - 256, by omega⟩)
        (fun b hb => match b, hb with
          | ⟨0, _⟩, _ => rfl
          | ⟨1, _⟩, _ => rfl
          | ⟨2, _⟩, hb => absurd rfl hb)
        (by show 256 + (l.val - 256) = l.val; omega)]
      exact v15_at x0 x1 x2 x3 x4 i j ⟨l.val - 256, by omega⟩

/-- The first decoder layer before its bias: the sum over the 384 features. -/
theorem v17_at (i j : Fin 512) (k : Fin 128) :
    val_main_v17 (F := Ideal) x0 x1 x2 x3 x4 x5 (ix3 i j k)
      = ∑ l : Fin 384,
          Cert.PairSpec.feat (fun l => val_main_v9 (F := Ideal) x0 x1 x2 x3 x4 (ix2 i l))
            (fun l => val_main_v9 (F := Ideal) x0 x1 x2 x3 x4 (ix2 j l)) l * x5 (ix2 l k) := by
  rw [val_main_v17_apply]
  refine Finset.sum_congr rfl fun l _ => ?_
  have el : lidx_main_v17 (ix3 i j k) l = ix3 i j l :=
    funext fun a => match a with | ⟨0, _⟩ => rfl | ⟨1, _⟩ => rfl | ⟨2, _⟩ => rfl
  have er : ridx_main_v17 (ix3 i j k) l = ix2 l k :=
    funext fun a => match a with | ⟨0, _⟩ => rfl | ⟨1, _⟩ => rfl
  rw [el, er, v16_at]

/-- The first bias, broadcast over the pairs. -/
theorem v19_at (i j : Fin 512) (k : Fin 128) :
    val_main_v19 (F := Ideal) x6 (ix3 i j k) = x6 (ix1 k) := by
  rw [val_main_v19_apply, val_main_v18_apply]
  exact congrArg _ (funext fun a => match a with | ⟨0, _⟩ => rfl)

/-- The hidden layer of the decoder after the rectifier. -/
theorem v21_at (i j : Fin 512) (k : Fin 128) :
    val_main_v21 (F := Ideal) x0 x1 x2 x3 x4 x5 x6 (ix3 i j k)
      = max ((∑ l : Fin 384,
          Cert.PairSpec.feat (fun l => val_main_v9 (F := Ideal) x0 x1 x2 x3 x4 (ix2 i l))
            (fun l => val_main_v9 (F := Ideal) x0 x1 x2 x3 x4 (ix2 j l)) l * x5 (ix2 l k)) + x6 (ix1 k)) 0 := by
  rw [val_main_v21_apply, val_main_v20_apply, v17_at, v19_at, val_main_call2_v0_apply,
    val_main_call2_cst_apply]
  show max (_ + _) (Ideal.ofBits .f32 0x00000000#32) = _
  rw [Ideal.ofBits_zero_f32]

/-- The last bias, broadcast over the pairs. -/
theorem v24_at (i j : Fin 512) :
    val_main_v24 (F := Ideal) x8 (ix3 i j (0 : Fin 1)) = x8 (ix1 (0 : Fin 1)) := by
  rw [val_main_v24_apply, val_main_v23_apply]
  exact congrArg _ (funext fun a => match a with | ⟨0, _⟩ => rfl)

/-- Entry (i, j) of the reference's result: the pair score of the hidden rows i and j in the one-sum
    arrangement, plus the last bias. -/
theorem ref_at (i j : Fin 512) :
    val_main_v26 (F := Ideal) x0 x1 x2 x3 x4 x5 x6 x7 x8 (ix2 i j)
      = Cert.PairSpec.refScore
          (fun l => val_main_v9 (F := Ideal) x0 x1 x2 x3 x4 (ix2 i l))
          (fun l => val_main_v9 (F := Ideal) x0 x1 x2 x3 x4 (ix2 j l))
          (fun l k => x5 (ix2 l k)) (fun k => x6 (ix1 k)) (fun k => x7 (ix2 k (0 : Fin 1)))
        + x8 (ix1 (0 : Fin 1)) := by
  have e26 : idx_main_v26 (ix2 i j) = ix3 i j (0 : Fin 1) := by
    have hi : i.val < 512 := i.isLt
    have hj : j.val < 512 := j.isLt
    funext a
    match a with
    | ⟨0, _⟩ => exact Fin.ext (by show (i.val * 512 + j.val) / 512 = i.val; omega)
    | ⟨1, _⟩ => exact Fin.ext (by show (i.val * 512 + j.val) / 1 % 512 = j.val; omega)
    | ⟨2, _⟩ => rfl
  rw [val_main_v26_apply, e26, val_main_v25_apply, val_main_v22_apply, v24_at]
  show (∑ k : Fin 128, _) + _ = _
  congr 1
  unfold Cert.PairSpec.refScore
  refine Finset.sum_congr rfl fun k _ => ?_
  have el : lidx_main_v22 (ix3 i j (0 : Fin 1)) k = ix3 i j k :=
    funext fun a => match a with | ⟨0, _⟩ => rfl | ⟨1, _⟩ => rfl | ⟨2, _⟩ => rfl
  have er : ridx_main_v22 (ix3 i j (0 : Fin 1)) k = ix2 k (0 : Fin 1) :=
    funext fun a => match a with | ⟨0, _⟩ => rfl | ⟨1, _⟩ => rfl
  rw [el, er, v21_at]

end Cert.ReferenceIdeal.RefValue

end
-- ==== Proof.PairLaw.lean ====
/-
  The two arrangements of the pair score agree.

  A sum over the 384 concatenated features is the sum of its three stretches of 128: on the first
  the feature is the row of node i, on the second the row of node j, on the third the absolute
  difference.  Moving the bias next to the node-i stretch is a rearrangement in the commutative
  additive monoid of the extended reals; nothing has to be finite.
-/
import proofs.«143030_j27152783245644_2_alg».proof.Proof.PairSpec
import Mathlib.Algebra.BigOperators.Fin

noncomputable section

open scoped BigOperators

namespace Cert.PairSpec

/-- A sum over 384 indices, cut into the stretches [0,128), [128,256), [256,384). -/
theorem sum_three (f : Fin 384 → EReal) :
    ∑ l : Fin 384, f l
      = (∑ l : Fin 128, f ⟨l.val, by omega⟩) + (∑ l : Fin 128, f ⟨128 + l.val, by omega⟩)
        + ∑ l : Fin 128, f ⟨256 + l.val, by omega⟩ := by
  have h1 : ∑ l : Fin 384, f l
      = (∑ i : Fin 256, f (Fin.castAdd 128 i)) + ∑ i : Fin 128, f (Fin.natAdd 256 i) :=
    Fin.sum_univ_add (a := 256) (b := 128) f
  have h2 : ∑ i : Fin 256, f (Fin.castAdd 128 i)
      = (∑ i : Fin 128, f (Fin.castAdd 128 (Fin.castAdd 128 i)))
        + ∑ i : Fin 128, f (Fin.castAdd 128 (Fin.natAdd 128 i)) :=
    Fin.sum_univ_add (a := 128) (b := 128) (fun i : Fin 256 => f (Fin.castAdd 128 i))
  rw [h1, h2]
  rfl

theorem feat_lo (hi hj : Fin 128 → EReal) (l : Fin 128) :
    feat hi hj ⟨l.val, by omega⟩ = hi l := by
  have h : l.val < 128 := l.isLt
  simp only [feat, dif_pos h]

theorem feat_mid (hi hj : Fin 128 → EReal) (l : Fin 128) :
    feat hi hj ⟨128 + l.val, by omega⟩ = hj l := by
  have h : ¬ (128 + l.val < 128) := by omega
  have h' : 128 + l.val < 256 := by omega
  simp only [feat, dif_neg h, dif_pos h']
  congr 1
  apply Fin.ext
  simp

theorem feat_hi (hi hj : Fin 128 → EReal) (l : Fin 128) :
    feat hi hj ⟨256 + l.val, by omega⟩ = max (hi l - hj l) (-(hi l - hj l)) := by
  have h : ¬ (256 + l.val < 128) := by omega
  have h' : ¬ (256 + l.val < 256) := by omega
  have e : (⟨256 + l.val - 256, by omega⟩ : Fin 128) = l := by
    apply Fin.ext
    simp
  simp only [feat, dif_neg h, dif_neg h', e]

/-- The one-sum arrangement equals the arrangement with the two per-node terms computed beforehand,
    the bias carried by the node-i term. -/
theorem refScore_eq_score (hi hj : Fin 128 → EReal) (W : Fin 384 → Fin 128 → EReal)
    (b1 w2 : Fin 128 → EReal) :
    refScore hi hj W b1 w2 = score hi hj
      (fun k => (∑ l : Fin 128, hi l * W ⟨l.val, by omega⟩ k) + b1 k)
      (fun k => ∑ l : Fin 128, hj l * W ⟨128 + l.val, by omega⟩ k)
      (fun l k => W ⟨256 + l.val, by omega⟩ k) w2 := by
  unfold refScore score
  refine Finset.sum_congr rfl (fun k _ => ?_)
  rw [sum_three (fun l => feat hi hj l * W l k)]
  simp only [feat_lo, feat_mid, feat_hi]
  congr 2
  ac_rfl

end Cert.PairSpec

end
-- ==== Proof.Bridge.lean ====
/-
  The kernel's result and the reference's result are one function of the arguments, entry by entry.

  At the pair (i, j) the reference computes  Σ_k max((Σ_{l<384} feat_l · Wp1_{l,k}) + bp1_k, 0) · Wp2_{k,0} + bp2_0  with
  feat = [h_i, h_j, |h_i − h_j|]  (`PairSpec.refScore`). The kernel computes beforehand the node-i term
  (Σ_{l<128} h_{i,l} · Wp1_{l,k}) + bp1_k  and the node-j term  Σ_{l<128} h_{j,l} · Wp1_{128+l,k}, adds inside the region the
  contribution of the absolute differences through rows 256…383 of Wp1, and adds bp2_0 after the region
  (`PairSpec.score`). The two agree by splitting the sum over the 384 features into its three stretches and regrouping
  the additions (`PairSpec.refScore_eq_score`): laws of a commutative monoid, valid on the extended reals whatever the
  entries are. The hidden rows h are the same term of the arguments in both programs.
-/
import proofs.«143030_j27152783245644_2_alg».proof.Defs
import proofs.«143030_j27152783245644_2_alg».proof.Proof.SharedLaunch
import proofs.«143030_j27152783245644_2_alg».proof.Proof.WordLaunch
import proofs.«143030_j27152783245644_2_alg».proof.Proof.KernelArray
import proofs.«143030_j27152783245644_2_alg».proof.Proof.KernelHost
import proofs.«143030_j27152783245644_2_alg».proof.Proof.RefValue
import proofs.«143030_j27152783245644_2_alg».proof.Proof.PairLaw
import proofs.«143030_j27152783245644_2_alg».proof.Proof.Gen.Pre_finite_inputs
import proofs.«143030_j27152783245644_2_alg».proof.Proof.Gen.ReferenceIdeal.Run
import proofs.«143030_j27152783245644_2_alg».proof.Proof.Gen.ReferenceIdeal.Read

noncomputable section

open Idealize.ShloMosaic Idealize.ShloMosaic.TcCoe Idealize.SL.Sem Idealize.ShloMosaic.ValueIdx

namespace Cert.Proof.Pair

open Cert.KernelIdeal Cert.KernelIdeal.Gen Cert.KernelIdeal.Shared

section Value

variable (m : (ℓ : Loc Cert.KernelIdeal.nD Cert.KernelIdeal.τ Cert.KernelIdeal.sig) → Buf (Elt Ideal) ℓ) (c : Dev Cert.KernelIdeal.nD)

/-- The buffers as launched on core `c`, as a valuation. -/
abbrev W0 : Valuation Cert.KernelIdeal.τ Cert.KernelIdeal.sig (Elt Ideal) := fun b => m (c, b)

/-- The kernel's result at the pair (i, j), in the reference's arrangement. -/
theorem kernel_at (i j : Fin 512) :
    Cert.KernelIdeal.HostValue.out (Wexit m c) (ix2 i j)
      = Cert.PairSpec.refScore
          (fun l => Cert.ReferenceIdeal.Read.val_main_v9 (F := Ideal) (Cert.KernelIdeal.HostValue.arg0 (W0 m c)) (Cert.KernelIdeal.HostValue.arg1 (W0 m c))
            (Cert.KernelIdeal.HostValue.arg2 (W0 m c)) (Cert.KernelIdeal.HostValue.arg3 (W0 m c)) (Cert.KernelIdeal.HostValue.arg4 (W0 m c)) (ix2 i l))
          (fun l => Cert.ReferenceIdeal.Read.val_main_v9 (F := Ideal) (Cert.KernelIdeal.HostValue.arg0 (W0 m c)) (Cert.KernelIdeal.HostValue.arg1 (W0 m c))
            (Cert.KernelIdeal.HostValue.arg2 (W0 m c)) (Cert.KernelIdeal.HostValue.arg3 (W0 m c)) (Cert.KernelIdeal.HostValue.arg4 (W0 m c)) (ix2 j l))
          (fun l k => Cert.KernelIdeal.HostValue.arg5 (W0 m c) (ix2 l k)) (fun k => Cert.KernelIdeal.HostValue.arg6 (W0 m c) (ix1 k))
          (fun k => Cert.KernelIdeal.HostValue.arg7 (W0 m c) (ix2 k (0 : Fin 1)))
        + Cert.KernelIdeal.HostValue.arg8 (W0 m c) (ix1 (0 : Fin 1)) := by
  have hacc : Cert.KernelIdeal.HostValue.acc (Wexit m c) = (dats (F := Ideal) m 0 c).arrAt 6 cfg0.N :=
    Function.update_self (β := fun b : DevRef Cert.KernelIdeal.τ Cert.KernelIdeal.sig => b.ty.Contents (Elt Ideal))
      (Proc.devRef (τ := Cert.KernelIdeal.τ) .tc main_v20) ((dats (F := Ideal) m 0 c).arrAt 6 cfg0.N) (V0 m c)
  have harg8 : Cert.KernelIdeal.HostValue.arg8 (Wexit m c) = Cert.KernelIdeal.HostValue.arg8 (W0 m c) :=
    (Function.update_of_ne (StableHlo.devRef_ne_of_ne (by decide)) _ _).trans (pre_main_arg8 _)
  rw [Cert.KernelIdeal.HostValue.tail_at, hacc, harg8, Cert.KernelIdeal.ArrayValue.out_at m c i j]
  show Cert.PairSpec.score (fun l => Cert.KernelIdeal.HostValue.hid (W0 m c) (ix2 i l)) (fun l => Cert.KernelIdeal.HostValue.hid (W0 m c) (ix2 j l))
      (fun k => Cert.KernelIdeal.HostValue.ta (W0 m c) (ix2 i k)) (fun k => Cert.KernelIdeal.HostValue.tb (W0 m c) (ix2 j k))
      (fun l k => Cert.KernelIdeal.HostValue.wc (W0 m c) (ix2 l k)) (fun k => Cert.KernelIdeal.HostValue.w2row (W0 m c) (ix2 (0 : Fin 1) k)) + _ = _
  rw [show (fun k => Cert.KernelIdeal.HostValue.ta (W0 m c) (ix2 i k)) = _ from funext fun k => Cert.KernelIdeal.HostValue.ta_at (W0 m c) i k,
    show (fun k => Cert.KernelIdeal.HostValue.tb (W0 m c) (ix2 j k)) = _ from funext fun k => Cert.KernelIdeal.HostValue.tb_at (W0 m c) j k,
    show (fun l k => Cert.KernelIdeal.HostValue.wc (W0 m c) (ix2 l k)) = _ from funext fun l => funext fun k => Cert.KernelIdeal.HostValue.wc_at (W0 m c) l k,
    show (fun k => Cert.KernelIdeal.HostValue.w2row (W0 m c) (ix2 (0 : Fin 1) k)) = _ from funext fun k => Cert.KernelIdeal.HostValue.w2_at (W0 m c) k,
    Cert.KernelIdeal.HostValue.hidden_eq, Cert.PairSpec.refScore_eq_score]

end Value

section Reference

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories agreeing on the nine arguments, the reference's result array is the kernel's. -/
theorem ref_eq_kernel (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v26 (F := Ideal) m' c = Vend m c main_v23 := by
  funext y
  obtain ⟨i, j, rfl⟩ : ∃ (i j : Fin 512), y = ix2 i j := ⟨y 0, y 1, eq_ix2 y⟩
  rw [Cert.ReferenceIdeal.Read.val_main_v26_eq, h0, h1, h2, h3, h4, h5, h6, h7, h8]
  exact (Cert.ReferenceIdeal.RefValue.ref_at _ _ _ _ _ _ _ _ _ i j).trans (kernel_at m c i j).symm

end Reference

/-! ## The claims -/

theorem frame_k : Cert.frame_Kernel := fun m ρ _ => Cert.Kernel.Shared.frame m ρ
theorem frame_ki : Cert.frame_KernelIdeal := fun m ρ _ => Cert.KernelIdeal.Shared.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs run, and from memories agreeing on the arguments their results are equal entry by entry. -/
theorem algebraic : Cert.algebraic_KernelIdeal_ReferenceIdeal := by
  intro m ρ m' ρ' _ hagree
  refine ⟨fun c => Vend m c main_v23, Cert.KernelIdeal.Shared.run_all m ρ, ?_⟩
  refine (θ_run Cert.ReferenceIdeal.defs _ _).mono (fun _ h c => ⟨(h c).1.trans ?_, (h c).2⟩)
    (Cert.ReferenceIdeal.Value.run (F := Ideal) m' ρ')
  exact ref_eq_kernel m m' c (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2

end Cert.Proof.Pair

end
-- ==== Proof.lean ====
/-
  The certificate of the pairwise edge decoder: the word-level kernel, its reading on the extended reals and the jnp
  reference, for 512 nodes with 128 hidden units.

  Both programs encode the nodes by the same two dense layers with rectifiers (the hidden rows h) and score every
  ordered pair (i, j) by a two-layer decoder on the 384 features [h_i, h_j, |h_i − h_j|]. The reference builds the
  features and applies the 384 × 128 first layer to them. The kernel never builds them: the part of the first layer
  on h_i (with the bias) and the part on h_j are computed once per node before the region, and the region adds, tile by
  tile over a 4 × 4 grid, the part on |h_i − h_j|, the rectifier and the second layer; the last bias is added after it.

  * The three frames: each program runs to the end without a fault and leaves its nine arguments as launched. The kernel
    reads the hidden rows through two windows of one array, so its run deals that array's share to the two windows in
    halves (Proof/SharedBody.lean, Proof/SharedLaunch.lean at the extended reals; Proof/WordBody.lean,
    Proof/WordLaunch.lean for the program as printed); the reference's frame is its run with the result dropped.
  * Nothing was rewritten between the printed kernel and its idealization, so there is nothing to preserve.
  * The two results are equal entry by entry (Proof/Bridge.lean): the kernel's tile entry is PairSpec.score of the rows
    (Proof/KernelBlock.lean, Proof/KernelArray.lean, Proof/KernelHost.lean), the reference's is PairSpec.refScore
    (Proof/RefValue.lean), and the two are one number by splitting the sum over the 384 features into three stretches
    of 128 and regrouping additions (Proof/PairLaw.lean) — commutativity and associativity only, so no finiteness of
    the inputs is used.
-/
import proofs.«143030_j27152783245644_2_alg».proof.Defs
import proofs.«143030_j27152783245644_2_alg».proof.Proof.Bridge
import proofs.«143030_j27152783245644_2_alg».proof.Proof.Gen.Kernel
import proofs.«143030_j27152783245644_2_alg».proof.Proof.Gen.Kernel.Skeleton
import proofs.«143030_j27152783245644_2_alg».proof.Proof.Gen.Kernel.Launch
import proofs.«143030_j27152783245644_2_alg».proof.Proof.Gen.Kernel.Points
import proofs.«143030_j27152783245644_2_alg».proof.Proof.Gen.KernelIdeal
import proofs.«143030_j27152783245644_2_alg».proof.Proof.Gen.KernelIdeal.Skeleton
import proofs.«143030_j27152783245644_2_alg».proof.Proof.Gen.KernelIdeal.Launch
import proofs.«143030_j27152783245644_2_alg».proof.Proof.Gen.KernelIdeal.Points
import proofs.«143030_j27152783245644_2_alg».proof.Proof.Gen.ReferenceIdeal
import proofs.«143030_j27152783245644_2_alg».proof.Proof.Gen.ReferenceIdeal.Run
import proofs.«143030_j27152783245644_2_alg».proof.Proof.Gen.ReferenceIdeal.Read
import proofs.«143030_j27152783245644_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Pair.frame_k, Pair.frame_ki, Pair.frame_ri, Pair.preserves, Pair.algebraic⟩

end Cert.Proof

end
